-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192x2 : Shape := ⟨3, ![8192, 8192, 2]⟩
abbrev S_ : Shape := ⟨0, ![]⟩
abbrev S128x32 : Shape := ⟨2, ![128, 32]⟩
abbrev S32 : Shape := ⟨1, ![32]⟩
abbrev S8192x32 : Shape := ⟨2, ![8192, 32]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192x2 : S_.BroadcastsInDim S8192x8192x2 (![] : Fin 0 → Fin S8192x8192x2.rank)
  reducesTo_S8192x8192x2_S_d0_1_2 : S8192x8192x2.ReducesTo [0, 1, 2] S_
  reducesTo_S_S_d : S_.ReducesTo [] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S8192x32 : S_.BroadcastsInDim S8192x32 (![] : Fin 0 → Fin S8192x32.rank)
  reducesTo_S8192x32_S_d0_1 : S8192x32.ReducesTo [0, 1] S_

variable [Facts]

def fn_part2 {F : FTy → Type} [FloatOps F] (main_arg8 : FVec F S32 .f32) (main_v32 : IVec S_ 1) (main_v33 : FVec F S32 .f32) : IVec S_ 1 :=
  let main_cst_12 : FVec F S_ .f32 := constant S_ .f32 0x7F800000#32
  let main_v34 : FVec F S32 .f32 := broadcastInDim S32 ![] bcast_S_S32 main_cst_12
  let main_v35 : IVec S32 1 := cmpf .olt main_v33 main_v34
  let main_c_13 : IVec S_ 1 := constantI S_ 1 1#1
  let main_v36 : IVec S_ 1 := (fun x v => Host.reduce IntOp.andi x v reducesTo_S32_S_d0 h_S_) main_v35 main_c_13
  let main_v37 : IVec S_ 1 := andi main_v32 main_v36
  let main_v38 : FVec F S32 .f32 := Host.absf main_arg8
  let main_cst_14 : FVec F S_ .f32 := constant S_ .f32 0x7F800000#32
  let main_v39 : FVec F S32 .f32 := broadcastInDim S32 ![] bcast_S_S32 main_cst_14
  let main_v40 : IVec S32 1 := cmpf .olt main_v38 main_v39
  let main_c_15 : IVec S_ 1 := constantI S_ 1 1#1
  let main_v41 : IVec S_ 1 := (fun x v => Host.reduce IntOp.andi x v reducesTo_S32_S_d0 h_S_) main_v40 main_c_15
  let main_v42 : IVec S_ 1 := andi main_v37 main_v41
  main_v42

def fn_part1 {F : FTy → Type} [FloatOps F] (main_arg4 : FVec F S128x32 .f32) (main_arg5 : FVec F S32 .f32) (main_arg6 : FVec F S8192x32 .f32) (main_arg7 : FVec F S32 .f32) (main_arg8 : FVec F S32 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S128x32 .f32 := Host.absf main_arg4
  let main_cst_6 : FVec F S_ .f32 := constant S_ .f32 0x7F800000#32
  let main_v19 : FVec F S128x32 .f32 := broadcastInDim S128x32 ![] bcast_S_S128x32 main_cst_6
  let main_v20 : IVec S128x32 1 := cmpf .olt main_v18 main_v19
  let main_c_7 : IVec S_ 1 := constantI S_ 1 1#1
  let main_v21 : IVec S_ 1 := (fun x v => Host.reduce IntOp.andi x v reducesTo_S128x32_S_d0_1 h_S_) main_v20 main_c_7
  let main_v22 : IVec S_ 1 := andi main_v17 main_v21
  let main_v23 : FVec F S32 .f32 := Host.absf main_arg5
  let main_cst_8 : FVec F S_ .f32 := constant S_ .f32 0x7F800000#32
  let main_v24 : FVec F S32 .f32 := broadcastInDim S32 ![] bcast_S_S32 main_cst_8
  let main_v25 : IVec S32 1 := cmpf .olt main_v23 main_v24
  let main_c_9 : IVec S_ 1 := constantI S_ 1 1#1
  let main_v26 : IVec S_ 1 := (fun x v => Host.reduce IntOp.andi x v reducesTo_S32_S_d0 h_S_) main_v25 main_c_9
  let main_v27 : IVec S_ 1 := andi main_v22 main_v26
  let main_v28 : FVec F S8192x32 .f32 := Host.absf main_arg6
  let main_cst_10 : FVec F S_ .f32 := constant S_ .f32 0x7F800000#32
  let main_v29 : FVec F S8192x32 .f32 := broadcastInDim S8192x32 ![] bcast_S_S8192x32 main_cst_10
  let main_v30 : IVec S8192x32 1 := cmpf .olt main_v28 main_v29
  let main_c_11 : IVec S_ 1 := constantI S_ 1 1#1
  let main_v31 : IVec S_ 1 := (fun x v => Host.reduce IntOp.andi x v reducesTo_S8192x32_S_d0_1 h_S_) main_v30 main_c_11
  let main_v32 : IVec S_ 1 := andi main_v27 main_v31
  let main_v33 : FVec F S32 .f32 := Host.absf main_arg7
  fn_part2 (F := F) main_arg8 main_v32 main_v33

def fn {F : FTy → Type} [FloatOps F] (main_arg0 : FVec F S8192x128 .f32) (main_arg1 : FVec F S8192x8192x2 .f32) (main_arg2 : FVec F S8192x8192x2 .f32) (main_arg3 : FVec F S_ .f32) (main_arg4 : FVec F S128x32 .f32) (main_arg5 : FVec F S32 .f32) (main_arg6 : FVec F S8192x32 .f32) (main_arg7 : FVec F S32 .f32) (main_arg8 : FVec F S32 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192x2 .f32 := Host.absf main_arg1
  let main_cst_0 : FVec F S_ .f32 := constant S_ .f32 0x7F800000#32
  let main_v5 : FVec F S8192x8192x2 .f32 := broadcastInDim S8192x8192x2 ![] bcast_S_S8192x8192x2 main_cst_0
  let main_v6 : IVec S8192x8192x2 1 := cmpf .olt main_v4 main_v5
  let main_c_1 : IVec S_ 1 := constantI S_ 1 1#1
  let main_v7 : IVec S_ 1 := (fun x v => Host.reduce IntOp.andi x v reducesTo_S8192x8192x2_S_d0_1_2 h_S_) main_v6 main_c_1
  let main_v8 : IVec S_ 1 := andi main_v3 main_v7
  let main_v9 : FVec F S8192x8192x2 .f32 := Host.absf main_arg2
  let main_cst_2 : FVec F S_ .f32 := constant S_ .f32 0x7F800000#32
  let main_v10 : FVec F S8192x8192x2 .f32 := broadcastInDim S8192x8192x2 ![] bcast_S_S8192x8192x2 main_cst_2
  let main_v11 : IVec S8192x8192x2 1 := cmpf .olt main_v9 main_v10
  let main_c_3 : IVec S_ 1 := constantI S_ 1 1#1
  let main_v12 : IVec S_ 1 := (fun x v => Host.reduce IntOp.andi x v reducesTo_S8192x8192x2_S_d0_1_2 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_arg6 main_arg7 main_arg8 main_v13 main_v15 main_c_5
-- ==== Kernel.lean ====
abbrev S8192x128 : Shape := ⟨2, ![8192, 128]⟩
abbrev S8192x8192x2 : Shape := ⟨3, ![8192, 8192, 2]⟩
abbrev S_ : Shape := ⟨0, ![]⟩
abbrev S128x32 : Shape := ⟨2, ![128, 32]⟩
abbrev S32 : Shape := ⟨1, ![32]⟩
abbrev S8192x32 : Shape := ⟨2, ![8192, 32]⟩
abbrev S1x32 : Shape := ⟨2, ![1, 32]⟩
abbrev S8192x64 : Shape := ⟨2, ![8192, 64]⟩
abbrev S8192x1x64 : Shape := ⟨3, ![8192, 1, 64]⟩
abbrev S8192x2x64 : Shape := ⟨3, ![8192, 2, 64]⟩
abbrev S16384x64 : Shape := ⟨2, ![16384, 64]⟩
abbrev S16384x128 : Shape := ⟨2, ![16384, 128]⟩
abbrev S8192x16384 : Shape := ⟨2, ![8192, 16384]⟩
abbrev S128x16384 : Shape := ⟨2, ![128, 16384]⟩
abbrev S128x128 : Shape := ⟨2, ![128, 128]⟩
abbrev S16384x32 : Shape := ⟨2, ![16384, 32]⟩
abbrev S1x16384x32 : Shape := ⟨3, ![1, 16384, 32]⟩
abbrev S2x16384x32 : Shape := ⟨3, ![2, 16384, 32]⟩
abbrev S1x1x32 : Shape := ⟨3, ![1, 1, 32]⟩

abbrev nBuf : Space → Nat
  | .hbm => 70
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x8192x2, .f32⟩
  | .hbm, ⟨2, _⟩ => ⟨S8192x8192x2, .f32⟩
  | .hbm, ⟨3, _⟩ => ⟨S_, .f32⟩
  | .hbm, ⟨4, _⟩ => ⟨S128x32, .f32⟩
  | .hbm, ⟨5, _⟩ => ⟨S32, .f32⟩
  | .hbm, ⟨6, _⟩ => ⟨S8192x32, .f32⟩
  | .hbm, ⟨7, _⟩ => ⟨S32, .f32⟩
  | .hbm, ⟨8, _⟩ => ⟨S32, .f32⟩
  | .hbm, ⟨9, _⟩ => ⟨S8192x32, .f32⟩
  | .hbm, ⟨10, _⟩ => ⟨S1x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S_, .f32⟩
  | .hbm, ⟨16, _⟩ => ⟨S_, .f32⟩
  | .hbm, ⟨17, _⟩ => ⟨S8192x32, .f32⟩
  | .hbm, ⟨18, _⟩ => ⟨S8192x32, .f32⟩
  | .hbm, ⟨19, _⟩ => ⟨S8192x64, .f32⟩
  | .hbm, ⟨20, _⟩ => ⟨S_, .f32⟩
  | .hbm, ⟨21, _⟩ => ⟨S8192x64, .f32⟩
  | .hbm, ⟨22, _⟩ => ⟨S8192x1x64, .f32⟩
  | .hbm, ⟨23, _⟩ => ⟨S8192x1x64, .f32⟩
  | .hbm, ⟨24, _⟩ => ⟨S8192x2x64, .f32⟩
  | .hbm, ⟨25, _⟩ => ⟨S16384x64, .f32⟩
  | .hbm, ⟨26, _⟩ => ⟨S8192x1x64, .f32⟩
  | .hbm, ⟨27, _⟩ => ⟨S8192x1x64, .f32⟩
  | .hbm, ⟨28, _⟩ => ⟨S8192x2x64, .f32⟩
  | .hbm, ⟨29, _⟩ => ⟨S16384x64, .f32⟩
  | .hbm, ⟨30, _⟩ => ⟨S16384x128, .f32⟩
  | .hbm, ⟨31, _⟩ => ⟨S16384x128, .bf16⟩
  | .hbm, ⟨32, _⟩ => ⟨S8192x16384, .f32⟩
  | .hbm, ⟨33, _⟩ => ⟨S8192x16384, .f32⟩
  | .hbm, ⟨34, _⟩ => ⟨S8192x128, .f32⟩
  | .hbm, ⟨35, _⟩ => ⟨S8192x128, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S32, .f32⟩
  | .hbm, ⟨45, _⟩ => ⟨S32, .f32⟩
  | .hbm, ⟨46, _⟩ => ⟨S8192x32, .f32⟩
  | .hbm, ⟨47, _⟩ => ⟨S1x32, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S1x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S1x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S1x32, .f32⟩
  | .hbm, ⟨60, _⟩ => ⟨S8192x32, .f32⟩
  | .hbm, ⟨61, _⟩ => ⟨S8192x32, .f32⟩
  | .hbm, ⟨62, _⟩ => ⟨S16384x32, .f32⟩
  | .hbm, ⟨63, _⟩ => ⟨S16384x32, .f32⟩
  | .hbm, ⟨64, _⟩ => ⟨S1x16384x32, .f32⟩
  | .hbm, ⟨65, _⟩ => ⟨S1x16384x32, .f32⟩
  | .hbm, ⟨66, _⟩ => ⟨S2x16384x32, .f32⟩
  | .hbm, ⟨67, _⟩ => ⟨S1x1x32, .f32⟩
  | .hbm, ⟨68, _⟩ => ⟨S2x16384x32, .f32⟩
  | .hbm, ⟨69, _⟩ => ⟨S2x16384x32, .f32⟩
  | .local _ .vmem, ⟨0, _⟩ => ⟨S128x16384, .f32⟩
  | .local _ .vmem, ⟨1, _⟩ => ⟨S128x16384, .f32⟩
  | .local _ .vmem, ⟨2, _⟩ => ⟨S16384x128, .bf16⟩
  | .local _ .vmem, ⟨3, _⟩ => ⟨S128x128, .f32⟩
  | .local _ .vmem, ⟨4, _⟩ => ⟨S128x128, .f32⟩
  | .local _ .vmem, ⟨5, _⟩ => ⟨S128x16384, .f32⟩
  | .local _ .vmem, ⟨6, _⟩ => ⟨S128x16384, .f32⟩
  | .local _ .vmem, ⟨7, _⟩ => ⟨S16384x128, .bf16⟩
  | .local _ .vmem, ⟨8, _⟩ => ⟨S128x128, .f32⟩
  | .local _ .vmem, ⟨9, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  concatenates_S8192x32_S8192x32_S8192x64_d1 : Shape.Concatenates [S8192x32, S8192x32] S8192x64 1
  bcast_S_S8192x64 : S_.BroadcastsInDim S8192x64 (![] : Fin 0 → Fin S8192x64.rank)
  bcast_S8192x64_S8192x1x64_0_2 : S8192x64.BroadcastsInDim S8192x1x64 (![0, 2] : Fin 2 → Fin S8192x1x64.rank)
  concatenates_S8192x1x64_S8192x1x64_S8192x2x64_d1 : Shape.Concatenates [S8192x1x64, S8192x1x64] S8192x2x64 1
  shapeCasts_S8192x2x64_S16384x64 : S8192x2x64.ShapeCasts S16384x64
  concatenates_S16384x64_S16384x64_S16384x128_d1 : Shape.Concatenates [S16384x64, S16384x64] S16384x128 1
  bitsLt_bf16_f32 : FTy.bits .bf16 < FTy.bits .f32
  shapeCasts_S8192x8192x2_S8192x16384 : S8192x8192x2.ShapeCasts S8192x16384
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  slices_S8192x128_S8192x32_0_0 : S8192x128.Slices ![0, 0] S8192x32
  slices_S8192x128_S8192x32_0_32 : S8192x128.Slices ![0, 32] S8192x32
  slices_S8192x128_S8192x32_0_64 : S8192x128.Slices ![0, 64] S8192x32
  slices_S8192x128_S8192x32_0_96 : S8192x128.Slices ![0, 96] S8192x32
  bcast_S_S32 : S_.BroadcastsInDim S32 (![] : Fin 0 → Fin S32.rank)
  concatenates_S8192x32_S8192x32_S16384x32_d0 : Shape.Concatenates [S8192x32, S8192x32] S16384x32 0
  bcast_S16384x32_S1x16384x32_1_2 : S16384x32.BroadcastsInDim S1x16384x32 (![1, 2] : Fin 2 → Fin S1x16384x32.rank)
  concatenates_S1x16384x32_S1x16384x32_S2x16384x32_d0 : Shape.Concatenates [S1x16384x32, S1x16384x32] S2x16384x32 0
  bcast_S32_S1x1x32_2 : S32.BroadcastsInDim S1x1x32 (![2] : Fin 1 → Fin S1x1x32.rank)
  bcast_S1x1x32_S2x16384x32_0_1_2 : S1x1x32.BroadcastsInDim S2x16384x32 (![0, 1, 2] : Fin 3 → Fin S2x16384x32.rank)
  dot_S8192x128_S128x32_S8192x32_1_0_0_1_n_n_wf : DotDims.WF S8192x128 S128x32 S8192x32 [1] [0] [0] [1] [] []
  dot_S128x16384_S16384x128_S128x128_1_0_0_1_n_n_wf : DotDims.WF S128x16384 S16384x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S8192x16384.size a
  hwx0_0 : ∀ i : grid0.Coords, EltTy.bits .f32 = 32 ∨ (Rect.block (s := S8192x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .f32 = 32 ∨ (Rect.block (s := S8192x128) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S8192x16384.size a
  hwx1_0 : ∀ i : grid1.Coords, EltTy.bits .f32 = 32 ∨ (Rect.block (s := S8192x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .bf16 = 32 ∨ (Rect.block (s := S16384x128) S16384x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S8192x128.size a
  hwx1_2 : ∀ i : grid1.Coords, EltTy.bits .f32 = 32 ∨ (Rect.block (s := S8192x128) S128x128.size (cc1_transform_2 i) (hinb1_2 i)).WholeWords (EltTy.packing .f32)

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf

abbrev win0_0 : Pipeline.Window sig grid0 :=
  Pipeline.Window.ofSpec (Memref.whole main_v21) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192x2 : Shape := ⟨3, ![8192, 8192, 2]⟩
abbrev S_ : Shape := ⟨0, ![]⟩
abbrev S128x32 : Shape := ⟨2, ![128, 32]⟩
abbrev S32 : Shape := ⟨1, ![32]⟩
abbrev S8192x32 : Shape := ⟨2, ![8192, 32]⟩
abbrev S1x32 : Shape := ⟨2, ![1, 32]⟩
abbrev S2x8192x8192 : Shape := ⟨3, ![2, 8192, 8192]⟩
abbrev S2x8192x32 : Shape := ⟨3, ![2, 8192, 32]⟩
abbrev S1x1x32 : Shape := ⟨3, ![1, 1, 32]⟩
abbrev S2x16384x32 : Shape := ⟨3, ![2, 16384, 32]⟩

abbrev nBuf : Space → Nat
  | .hbm => 43
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192x2, .f32⟩
  | .hbm, ⟨2, _⟩ => ⟨S8192x8192x2, .f32⟩
  | .hbm, ⟨3, _⟩ => ⟨S_, .f32⟩
  | .hbm, ⟨4, _⟩ => ⟨S128x32, .f32⟩
  | .hbm, ⟨5, _⟩ => ⟨S32, .f32⟩
  | .hbm, ⟨6, _⟩ => ⟨S8192x32, .f32⟩
  | .hbm, ⟨7, _⟩ => ⟨S32, .f32⟩
  | .hbm, ⟨8, _⟩ => ⟨S32, .f32⟩
  | .hbm, ⟨9, _⟩ => ⟨S8192x32, .f32⟩
  | .hbm, ⟨10, _⟩ => ⟨S1x32, .f32⟩
  | .hbm, ⟨11, _⟩ => ⟨S8192x32, .f32⟩
  | .hbm, ⟨12, _⟩ => ⟨S8192x32, .f32⟩
  | .hbm, ⟨13, _⟩ => ⟨S2x8192x8192, .f32⟩
  | .hbm, ⟨14, _⟩ => ⟨S2x8192x8192, .f32⟩
  | .hbm, ⟨15, _⟩ => ⟨S2x8192x32, .f32⟩
  | .hbm, ⟨16, _⟩ => ⟨S1x1x32, .f32⟩
  | .hbm, ⟨17, _⟩ => ⟨S2x8192x32, .f32⟩
  | .hbm, ⟨18, _⟩ => ⟨S2x8192x32, .f32⟩
  | .hbm, ⟨19, _⟩ => ⟨S2x8192x32, .f32⟩
  | .hbm, ⟨20, _⟩ => ⟨S1x1x32, .f32⟩
  | .hbm, ⟨21, _⟩ => ⟨S2x8192x32, .f32⟩
  | .hbm, ⟨22, _⟩ => ⟨S2x8192x32, .f32⟩
  | .hbm, ⟨23, _⟩ => ⟨S2x8192x32, .f32⟩
  | .hbm, ⟨24, _⟩ => ⟨S2x8192x32, .f32⟩
  | .hbm, ⟨25, _⟩ => ⟨S2x8192x32, .f32⟩
  | .hbm, ⟨26, _⟩ => ⟨S2x8192x32, .f32⟩
  | .hbm, ⟨27, _⟩ => ⟨S_, .f32⟩
  | .hbm, ⟨28, _⟩ => ⟨S_, .f32⟩
  | .hbm, ⟨29, _⟩ => ⟨S2x8192x32, .f32⟩
  | .hbm, ⟨30, _⟩ => ⟨S2x8192x32, .f32⟩
  | .hbm, ⟨31, _⟩ => ⟨S2x8192x32, .f32⟩
  | .hbm, ⟨32, _⟩ => ⟨S2x8192x32, .f32⟩
  | .hbm, ⟨33, _⟩ => ⟨S2x8192x32, .f32⟩
  | .hbm, ⟨34, _⟩ => ⟨S_, .f32⟩
  | .hbm, ⟨35, _⟩ => ⟨S_, .f32⟩
  | .hbm, ⟨36, _⟩ => ⟨S2x8192x32, .f32⟩
  | .hbm, ⟨37, _⟩ => ⟨S2x8192x32, .f32⟩
  | .hbm, ⟨38, _⟩ => ⟨S2x8192x32, .f32⟩
  | .hbm, ⟨39, _⟩ => ⟨S2x16384x32, .f32⟩
  | .hbm, ⟨40, _⟩ => ⟨S1x1x32, .f32⟩
  | .hbm, ⟨41, _⟩ => ⟨S2x16384x32, .f32⟩
  | .hbm, ⟨42, _⟩ => ⟨S2x16384x32, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  transposes_S8192x8192x2_S2x8192x8192_2_0_1 : S8192x8192x2.Transposes [2, 0, 1] S2x8192x8192
  bcast_S32_S1x1x32_2 : S32.BroadcastsInDim S1x1x32 (![2] : Fin 1 → Fin S1x1x32.rank)
  bcast_S1x1x32_S2x8192x32_0_1_2 : S1x1x32.BroadcastsInDim S2x8192x32 (![0, 1, 2] : Fin 3 → Fin S2x8192x32.rank)
  bcast_S_S2x8192x32 : S_.BroadcastsInDim S2x8192x32 (![] : Fin 0 → Fin S2x8192x32.rank)
  concatenates_S2x8192x32_S2x8192x32_S2x16384x32_d1 : Shape.Concatenates [S2x8192x32, S2x8192x32] S2x16384x32 1
  bcast_S1x1x32_S2x16384x32_0_1_2 : S1x1x32.BroadcastsInDim S2x16384x32 (![0, 1, 2] : Fin 3 → Fin S2x16384x32.rank)
  dot_S8192x128_S128x32_S8192x32_1_0_0_1_n_n_wf : DotDims.WF S8192x128 S128x32 S8192x32 [1] [0] [0] [1] [] []
  dot_S2x8192x8192_S8192x32_S2x8192x32_2_0_01_1_n_n_wf : DotDims.WF S2x8192x8192 S8192x32 S2x8192x32 [2] [0] [0, 1] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S2x8192x8192_S8192x32_S2x8192x32_2_0_01_1_n_n : DotDims S2x8192x8192 S8192x32 S2x8192x32 where
  lhsContracting := [2]
  rhsContracting := [0]
  lhsNonContracting := [0, 1]
  rhsNonContracting := [1]
  lhsBatch := []
  rhsBatch := []
  wf := dot_S2x8192x8192_S8192x32_S2x8192x32_2_0_01_1_n_n_wf

class Facts : Prop extends Facts₀ where

variable [Facts]
-- ==== Proof.LibScaledTiles.lean ====
/-
  Two facts about finite sums on the extended reals, for a contraction axis cut into equal tiles.

  * A sum over an axis of n·K positions is the sum over the n tiles of the sums inside each tile, position
    K·s + q of the axis being position q of tile s.
  * For real numbers a, b and a real scale σ, read as extended reals, multiplying the total of the tiles'
    sums of products a·b by σ gives the sum of the products a·(b·σ): on the reals this is distributivity, and a
    finite sum or product of reals read as extended reals is the extended real of the real sum or product.
    (On the extended reals alone the law fails: with an infinite total and σ = 0 the two sides differ.)
-/
import Idealize.ShloMosaic.PureOps.Ideal.Laws

noncomputable section

open scoped BigOperators

namespace Cert.Lib.ScaledTiles

/-- A finite sum of reals, read as an extended real, is the sum of the terms read as extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Position q of tile s, on an axis of n·K positions. -/
def tilePos {n K : Nat} (s : Fin n) (q : Fin K) : Fin (n * K) :=
  ⟨K * s.val + q.val, by
    have hs := s.isLt; have hq := q.isLt
    calc K * s.val + q.val < K * s.val + K := by omega
      _ = K * (s.val + 1) := by ring
      _ ≤ K * n := Nat.mul_le_mul_left K hs
      _ = n * K := Nat.mul_comm K n⟩

theorem tilePos_val {n K : Nat} (s : Fin n) (q : Fin K) : (tilePos s q).val = K * s.val + q.val := rfl

/-- A sum over n·K positions, tile by tile. -/
theorem sum_tiles {β : Type*} [AddCommMonoid β] {n K : Nat} (f : Fin (n * K) → β) :
    ∑ k : Fin (n * K), f k = ∑ s : Fin n, ∑ q : Fin K, f (tilePos s q) := by
  rw [← Equiv.sum_comp finProdFinEquiv f, Fintype.sum_prod_type]
  refine Finset.sum_congr rfl fun s _ => Finset.sum_congr rfl fun q _ => ?_
  congr 1
  apply Fin.ext
  show q.val + K * s.val = K * s.val + q.val
  omega

/-- The total over tiles of the sums of products a·b, started from zero and then multiplied by σ, is the sum of the
    products a·(b·σ), for real a, b, σ read as extended reals. -/
theorem scaled_total_eq {κ ι : Type*} [Fintype κ] [Fintype ι] (a b : κ → ι → ℝ) (σ : ℝ) :
    (0 + ∑ s : κ, ∑ q : ι, ((a s q : ℝ) : EReal) * ((b s q : ℝ) : EReal)) * (σ : EReal)
      = ∑ s : κ, ∑ q : ι, ((a s q : ℝ) : EReal) * (((b s q : ℝ) : EReal) * (σ : EReal)) := by
  simp only [← EReal.coe_mul, ← coe_sum, zero_add]
  congr 1
  rw [Finset.sum_mul]
  refine Finset.sum_congr rfl fun s _ => ?_
  rw [Finset.sum_mul]
  refine Finset.sum_congr rfl fun q _ => ?_
  ring

end Cert.Lib.ScaledTiles

end
-- ==== Proof.Sheet.lean ====
/-
  The mathematics of the graph-convolution sheet, on the extended reals.

  For one output entry — channel e, node n, filter f — let ev s be the edge weight E(n, s, e) over the source nodes s,
  w s the edge-embedding weight W2(s, f), xd s the embedded node feature (X·W1 + b1)(s, f), b the bias b2(f), α the
  mixing scalar and `one` the constant 1. The reference computes

      α · ((Σ_s ev s · w s) + b) + (one − α) · Σ_s ev s · xd s,

  while the kernel folds α and one − α into the right-hand matrix of one product and adds α·b afterwards:

      ((Σ_s ev s · (α · w s)) + Σ_s ev s · ((one − α) · xd s)) + α · b.

  The two agree when every number involved is real (on the extended reals distributivity fails at the infinities),
  which is where the finiteness of the inputs is used. The kernel also reads the edge tensor [N, N, 2] as a matrix
  [N, 2N] whose column 2s + q is the entry (s, q), against a right-hand matrix whose row 2s + q vanishes unless q is
  the wanted channel: a sum over the 2N interleaved positions of such products is the sum over the N source nodes on
  that channel (a product with zero is zero on the extended reals, so this step needs no finiteness).
-/
import proofs.«130500_j83030307766284_2_alg».proof.Proof.LibScaledTiles
import Idealize.ShloMosaic.Lib.ValueIdx

noncomputable section

open scoped BigOperators

namespace Cert.Sheet

open Idealize.ShloMosaic Idealize.ShloMosaic.ValueIdx Cert.Lib.ScaledTiles

/-- A sheet entry as the reference computes it. -/
def sheetRef {ι : Type} [Fintype ι] (ev w xd : ι → EReal) (α one b : EReal) : EReal :=
  α * ((∑ s, ev s * w s) + b) + (one - α) * ∑ s, ev s * xd s

/-- The same entry as the kernel computes it: the scalars folded into the summands, α·b added last. -/
def sheetKer {ι : Type} [Fintype ι] (ev w xd : ι → EReal) (α one b : EReal) : EReal :=
  ((∑ s, ev s * (α * w s)) + ∑ s, ev s * ((one - α) * xd s)) + α * b

/-- The two forms agree when every number is real: distributivity and commutativity on the reals. -/
theorem sheet_eq {ι : Type} [Fintype ι] (ev w xd : ι → EReal) (α one b : EReal)
    (hev : ∀ s, ∃ r : ℝ, ev s = (r : EReal)) (hw : ∀ s, ∃ r : ℝ, w s = (r : EReal)) (hxd : ∀ s, ∃ r : ℝ, xd s = (r : EReal))
    (hα : ∃ r : ℝ, α = (r : EReal)) (hone : ∃ r : ℝ, one = (r : EReal)) (hb : ∃ r : ℝ, b = (r : EReal)) :
    sheetKer ev w xd α one b = sheetRef ev w xd α one b := by
  choose ev' hev using hev
  choose w' hw using hw
  choose xd' hxd using hxd
  obtain ⟨α', rfl⟩ := hα
  obtain ⟨one', rfl⟩ := hone
  obtain ⟨b', rfl⟩ := hb
  unfold sheetKer sheetRef
  simp only [hev, hw, hxd]
  simp only [← EReal.coe_sub, ← EReal.coe_mul, ← coe_sum, ← EReal.coe_add]
  have h1 : ∑ s, ev' s * (α' * w' s) = α' * ∑ s, ev' s * w' s := by
    rw [Finset.mul_sum]; exact Finset.sum_congr rfl fun s _ => by ring
  have h2 : ∑ s, ev' s * ((one' - α') * xd' s) = (one' - α') * ∑ s, ev' s * xd' s := by
    rw [Finset.mul_sum]; exact Finset.sum_congr rfl fun s _ => by ring
  rw [h1, h2]
  congr 1
  ring

/-- A finite sum of products of reals plus a real is a real. -/
theorem affine_real {κ : Type} [Fintype κ] (x w : κ → EReal) (b : EReal)
    (hx : ∀ k, ∃ r : ℝ, x k = (r : EReal)) (hw : ∀ k, ∃ r : ℝ, w k = (r : EReal)) (hb : ∃ r : ℝ, b = (r : EReal)) :
    ∃ r : ℝ, (∑ k, x k * w k) + b = (r : EReal) := by
  choose x' hx using hx
  choose w' hw using hw
  obtain ⟨b', rfl⟩ := hb
  refine ⟨(∑ k, x' k * w' k) + b', ?_⟩
  simp only [hx, hw]
  simp only [← EReal.coe_mul, ← coe_sum, ← EReal.coe_add]

/-- A sum over 2n interleaved positions (position 2s + q is entry q of pair s) of products whose right factor vanishes
    off channel c is the sum over the n pairs of the products on channel c. -/
theorem sum_channel {n : Nat} (r w : Fin (n * 2) → EReal) (u : Fin n → EReal) (c : Fin 2)
    (hw : ∀ (s : Fin n) (q : Fin 2), w (tilePos s q) = if q = c then u s else 0) :
    ∑ k : Fin (n * 2), r k * w k = ∑ s : Fin n, r (tilePos s c) * u s := by
  rw [sum_tiles]
  refine Finset.sum_congr rfl fun s _ => ?_
  rw [Fin.sum_univ_two, hw s 0, hw s 1]
  fin_cases c <;> simp

/-- The word of the float 1.0 denotes the real number one. -/
theorem one_real : ∃ r : ℝ, Ideal.ofBits .f32 0x3F800000#32 = (r : EReal) :=
  ⟨1, by simp [Ideal.ofBits, Ideal.ieee, -EReal.coe_mul]; norm_num⟩

/-! ## The result array as one function of the argument arrays -/

abbrev SX : Shape := ⟨2, ![8192, 128]⟩
abbrev SE : Shape := ⟨3, ![8192, 8192, 2]⟩
abbrev S0 : Shape := ⟨0, ![]⟩
abbrev SW1 : Shape := ⟨2, ![128, 32]⟩
abbrev SV : Shape := ⟨1, ![32]⟩
abbrev SW2 : Shape := ⟨2, ![8192, 32]⟩
abbrev SY : Shape := ⟨3, ![2, 16384, 32]⟩

/-- The embedded node feature (X·W1 + b1) at node s and filter f. -/
def xdw (X : SX.Idx → EReal) (W1 : SW1.Idx → EReal) (b1 : SV.Idx → EReal) (s : Fin 8192) (f : Fin 32) : EReal :=
  (∑ k : Fin 128, X (ix2 s k) * W1 (ix2 k f)) + b1 (ix1 f)

/-- The reference's sheet of one edge tensor at channel e, node n, filter f. -/
def sheetAt (X : SX.Idx → EReal) (E : SE.Idx → EReal) (α : S0.Idx → EReal) (W1 : SW1.Idx → EReal) (b1 : SV.Idx → EReal)
    (W2 : SW2.Idx → EReal) (b2 : SV.Idx → EReal) (e : Fin 2) (n : Fin 8192) (f : Fin 32) : EReal :=
  sheetRef (fun s : Fin 8192 => E (ix3 n s e)) (fun s => W2 (ix2 s f)) (fun s => xdw X W1 b1 s f)
    (α ix0) (Ideal.ofBits .f32 0x3F800000#32) (b2 (ix1 f))

/-- The same entry in the kernel's arrangement. -/
def sheetAtKer (X : SX.Idx → EReal) (E : SE.Idx → EReal) (α : S0.Idx → EReal) (W1 : SW1.Idx → EReal) (b1 : SV.Idx → EReal)
    (W2 : SW2.Idx → EReal) (b2 : SV.Idx → EReal) (e : Fin 2) (n : Fin 8192) (f : Fin 32) : EReal :=
  sheetKer (fun s : Fin 8192 => E (ix3 n s e)) (fun s => W2 (ix2 s f)) (fun s => xdw X W1 b1 s f)
    (α ix0) (Ideal.ofBits .f32 0x3F800000#32) (b2 (ix1 f))

/-- The result [2, 2N, F]: along the middle axis the sheet of the first edge tensor, then the sheet of the second; the
    last bias added to every entry. -/
def G (X : SX.Idx → EReal) (E0 E1 : SE.Idx → EReal) (α : S0.Idx → EReal) (W1 : SW1.Idx → EReal) (b1 : SV.Idx → EReal)
    (W2 : SW2.Idx → EReal) (b2 bias : SV.Idx → EReal) : SY.Idx → EReal := fun i =>
  (if h : (i 1).val < 8192 then sheetAt X E0 α W1 b1 W2 b2 ⟨(i 0).val, (i 0).isLt⟩ ⟨(i 1).val, h⟩ ⟨(i 2).val, (i 2).isLt⟩
   else sheetAt X E1 α W1 b1 W2 b2 ⟨(i 0).val, (i 0).isLt⟩ ⟨(i 1).val - 8192, by have h2 : (i 1).val < 16384 := (i 1).isLt; omega⟩ ⟨(i 2).val, (i 2).isLt⟩)
    + bias (ix1 ⟨(i 2).val, (i 2).isLt⟩)

/-- G in the first N rows of the middle axis: the first edge tensor's sheet plus the last bias. -/
theorem G_lo (X : SX.Idx → EReal) (E0 E1 : SE.Idx → EReal) (α : S0.Idx → EReal) (W1 : SW1.Idx → EReal) (b1 : SV.Idx → EReal)
    (W2 : SW2.Idx → EReal) (b2 bias : SV.Idx → EReal) (e : Fin 2) (n : Fin 8192) (f : Fin 32) (r : Fin 16384) (hr : r.val = n.val) :
    G X E0 E1 α W1 b1 W2 b2 bias (ix3 e r f) = sheetAt X E0 α W1 b1 W2 b2 e n f + bias (ix1 f) := by
  have h : ((ix3 e r f : SY.Idx) 1).val < 8192 := by show r.val < 8192; have := n.isLt; omega
  unfold G
  rw [dif_pos h]
  have hn : (⟨((ix3 e r f : SY.Idx) 1).val, h⟩ : Fin 8192) = n := Fin.ext hr
  rw [hn]

/-- G in the last N rows: the second edge tensor's sheet plus the last bias. -/
theorem G_hi (X : SX.Idx → EReal) (E0 E1 : SE.Idx → EReal) (α : S0.Idx → EReal) (W1 : SW1.Idx → EReal) (b1 : SV.Idx → EReal)
    (W2 : SW2.Idx → EReal) (b2 bias : SV.Idx → EReal) (e : Fin 2) (n : Fin 8192) (f : Fin 32) (r : Fin 16384) (hr : r.val = n.val + 8192) :
    G X E0 E1 α W1 b1 W2 b2 bias (ix3 e r f) = sheetAt X E1 α W1 b1 W2 b2 e n f + bias (ix1 f) := by
  have h : ¬ ((ix3 e r f : SY.Idx) 1).val < 8192 := by show ¬ r.val < 8192; omega
  unfold G
  rw [dif_neg h]
  have hn : ∀ p, (⟨((ix3 e r f : SY.Idx) 1).val - 8192, p⟩ : Fin 8192) = n := fun p => Fin.ext (by show r.val - 8192 = n.val; omega)
  rw [hn]

/-- When every argument entry is real the kernel's arrangement of a sheet entry is the reference's. -/
theorem sheetAtKer_eq (X : SX.Idx → EReal) (E : SE.Idx → EReal) (α : S0.Idx → EReal) (W1 : SW1.Idx → EReal) (b1 : SV.Idx → EReal)
    (W2 : SW2.Idx → EReal) (b2 : SV.Idx → EReal)
    (hX : ∀ i, ∃ r : ℝ, X i = (r : EReal)) (hE : ∀ i, ∃ r : ℝ, E i = (r : EReal)) (hα : ∀ i, ∃ r : ℝ, α i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (e : Fin 2) (n : Fin 8192) (f : Fin 32) :
    sheetAtKer X E α W1 b1 W2 b2 e n f = sheetAt X E α W1 b1 W2 b2 e n f :=
  sheet_eq _ _ _ _ _ _ (fun s => hE _) (fun s => hW2 _)
    (fun s => affine_real _ _ _ (fun k => hX _) (fun k => hW1 _) (hb1 _)) (hα _) one_real (hb2 _)

end Cert.Sheet

end
-- ==== Proof.RefIsG.lean ====
/-
  The reference program's result, read entry by entry, is the specification G.

  The reference transposes each edge tensor to [2, N, N], contracts it with the edge weights W2 (adding b2) and with the
  embedded node features X·W1 + b1, mixes the two with α and 1 − α, lays the two sheets side by side along the middle
  axis and adds the last bias. Each stage is read at an index by the lemmas of the read-back module; what is written
  here is the identification of the composed index functions with plain coordinates, and the case split on which of
  the two concatenated sheets an index falls in.
-/
import proofs.«130500_j83030307766284_2_alg».proof.Proof.RefReadP
import proofs.«130500_j83030307766284_2_alg».proof.Proof.Sheet

set_option maxRecDepth 65536

noncomputable section

open scoped BigOperators

namespace Cert.ReferenceIdeal.RefG

open Cert.ReferenceIdeal Cert.ReferenceIdeal.ReadP Cert.Sheet Idealize.ShloMosaic Idealize.ShloMosaic.ValueIdx

/-- The reference's sheet of the first edge tensor, read at channel e, node n and filter f, is the specification's. -/
theorem sheet1_at (x0 : (⟨S8192x128, .f32⟩ : BufTy).Contents (Elt Ideal)) (x1 : (⟨S8192x8192x2, .f32⟩ : BufTy).Contents (Elt Ideal)) (x3 : (⟨S_, .f32⟩ : BufTy).Contents (Elt Ideal)) (x4 : (⟨S128x32, .f32⟩ : BufTy).Contents (Elt Ideal)) (x5 : (⟨S32, .f32⟩ : BufTy).Contents (Elt Ideal)) (x6 : (⟨S8192x32, .f32⟩ : BufTy).Contents (Elt Ideal)) (x7 : (⟨S32, .f32⟩ : BufTy).Contents (Elt Ideal)) (e : Fin 2) (n : Fin 8192) (f : Fin 32) :
    val_main_v21 (F := Ideal) x0 x1 x3 x4 x5 x6 x7 (ix3 e n f) = sheetAt x0 x1 x3 x4 x5 x6 x7 e n f := by
  have hE : ∀ k : Fin 8192, idx_main_v4 (lidx_main_v6 (ix3 e n f) k) = ix3 n k e := fun k => funext fun a => Fin.ext (by match a with | ⟨0, _⟩ => rfl | ⟨1, _⟩ => rfl | ⟨2, _⟩ => rfl)
  have hE' : ∀ k : Fin 8192, idx_main_v4 (lidx_main_v14 (ix3 e n f) k) = ix3 n k e := fun k => funext fun a => Fin.ext (by match a with | ⟨0, _⟩ => rfl | ⟨1, _⟩ => rfl | ⟨2, _⟩ => rfl)
  have hW : ∀ k : Fin 8192, ridx_main_v6 (ix3 e n f) k = ix2 k f := fun k => funext fun a => Fin.ext (by match a with | ⟨0, _⟩ => rfl | ⟨1, _⟩ => rfl)
  have hW' : ∀ k : Fin 8192, ridx_main_v14 (ix3 e n f) k = ix2 k f := fun k => funext fun a => Fin.ext (by match a with | ⟨0, _⟩ => rfl | ⟨1, _⟩ => rfl)
  have hb2 : idx_main_v7 (idx_main_v8 (ix3 e n f)) = ix1 f := funext fun a => Fin.ext (by match a with | ⟨0, _⟩ => rfl)
  have hα : idx_main_v16 (ix3 e n f) = ix0 := funext fun a => a.elim0
  have hα' : ∀ j : S_.Idx, j = ix0 := fun j => funext fun a => a.elim0
  have hX : ∀ (k : Fin 8192) (k' : Fin 128), lidx_main_v0 (ix2 k f) k' = ix2 k k' := fun k k' => funext fun a => Fin.ext (by match a with | ⟨0, _⟩ => rfl | ⟨1, _⟩ => rfl)
  have hW1 : ∀ (k : Fin 8192) (k' : Fin 128), ridx_main_v0 (ix2 k f) k' = ix2 k' f := fun k k' => funext fun a => Fin.ext (by match a with | ⟨0, _⟩ => rfl | ⟨1, _⟩ => rfl)
  have hb1 : ∀ k : Fin 8192, idx_main_v1 (idx_main_v2 (ix2 k f)) = ix1 f := fun k => funext fun a => Fin.ext (by match a with | ⟨0, _⟩ => rfl)
  rw [val_main_v21_apply, val_main_v17_apply, val_main_v16_apply, val_main_v9_apply, val_main_v6_apply,
    val_main_v8_apply, val_main_v7_apply, val_main_v20_apply, val_main_v19_apply, val_main_v18_apply,
    val_main_cst_apply, val_main_v14_apply]
  simp only [val_main_v4_apply, val_main_v3_apply, val_main_v0_apply, val_main_v2_apply, val_main_v1_apply, hE, hE', hW, hW', hb2, hα,
    hX, hW1, hb1, hα' (idx_main_v19 (ix3 e n f))]
  rfl

/-- The reference's sheet of the second edge tensor, read at channel e, node n and filter f, is the specification's. -/
theorem sheet2_at (x0 : (⟨S8192x128, .f32⟩ : BufTy).Contents (Elt Ideal)) (x2 : (⟨S8192x8192x2, .f32⟩ : BufTy).Contents (Elt Ideal)) (x3 : (⟨S_, .f32⟩ : BufTy).Contents (Elt Ideal)) (x4 : (⟨S128x32, .f32⟩ : BufTy).Contents (Elt Ideal)) (x5 : (⟨S32, .f32⟩ : BufTy).Contents (Elt Ideal)) (x6 : (⟨S8192x32, .f32⟩ : BufTy).Contents (Elt Ideal)) (x7 : (⟨S32, .f32⟩ : BufTy).Contents (Elt Ideal)) (e : Fin 2) (n : Fin 8192) (f : Fin 32) :
    val_main_v27 (F := Ideal) x0 x2 x3 x4 x5 x6 x7 (ix3 e n f) = sheetAt x0 x2 x3 x4 x5 x6 x7 e n f := by
  have hE : ∀ k : Fin 8192, idx_main_v5 (lidx_main_v10 (ix3 e n f) k) = ix3 n k e := fun k => funext fun a => Fin.ext (by match a with | ⟨0, _⟩ => rfl | ⟨1, _⟩ => rfl | ⟨2, _⟩ => rfl)
  have hE' : ∀ k : Fin 8192, idx_main_v5 (lidx_main_v15 (ix3 e n f) k) = ix3 n k e := fun k => funext fun a => Fin.ext (by match a with | ⟨0, _⟩ => rfl | ⟨1, _⟩ => rfl | ⟨2, _⟩ => rfl)
  have hW : ∀ k : Fin 8192, ridx_main_v10 (ix3 e n f) k = ix2 k f := fun k => funext fun a => Fin.ext (by match a with | ⟨0, _⟩ => rfl | ⟨1, _⟩ => rfl)
  have hW' : ∀ k : Fin 8192, ridx_main_v15 (ix3 e n f) k = ix2 k f := fun k => funext fun a => Fin.ext (by match a with | ⟨0, _⟩ => rfl | ⟨1, _⟩ => rfl)
  have hb2 : idx_main_v11 (idx_main_v12 (ix3 e n f)) = ix1 f := funext fun a => Fin.ext (by match a with | ⟨0, _⟩ => rfl)
  have hα : idx_main_v22 (ix3 e n f) = ix0 := funext fun a => a.elim0
  have hα' : ∀ j : S_.Idx, j = ix0 := fun j => funext fun a => a.elim0
  have hX : ∀ (k : Fin 8192) (k' : Fin 128), lidx_main_v0 (ix2 k f) k' = ix2 k k' := fun k k' => funext fun a => Fin.ext (by match a with | ⟨0, _⟩ => rfl | ⟨1, _⟩ => rfl)
  have hW1 : ∀ (k : Fin 8192) (k' : Fin 128), ridx_main_v0 (ix2 k f) k' = ix2 k' f := fun k k' => funext fun a => Fin.ext (by match a with | ⟨0, _⟩ => rfl | ⟨1, _⟩ => rfl)
  have hb1 : ∀ k : Fin 8192, idx_main_v1 (idx_main_v2 (ix2 k f)) = ix1 f := fun k => funext fun a => Fin.ext (by match a with | ⟨0, _⟩ => rfl)
  rw [val_main_v27_apply, val_main_v23_apply, val_main_v22_apply, val_main_v13_apply, val_main_v10_apply,
    val_main_v12_apply, val_main_v11_apply, val_main_v26_apply, val_main_v25_apply, val_main_v24_apply,
    val_main_cst_0_apply, val_main_v15_apply]
  simp only [val_main_v5_apply, val_main_v3_apply, val_main_v0_apply, val_main_v2_apply, val_main_v1_apply, hE, hE', hW, hW', hb2, hα,
    hX, hW1, hb1, hα' (idx_main_v25 (ix3 e n f))]
  rfl

/-- The last bias, broadcast over the result, read at an index. -/
theorem bias_at (x8 : (⟨S32, .f32⟩ : BufTy).Contents (Elt Ideal)) (i : S2x16384x32.Idx) :
    val_main_v30 (F := Ideal) x8 i = x8 (ix1 (⟨(i 2).val, (i 2).isLt⟩ : Fin 32)) := by
  rw [val_main_v30_apply, val_main_v29_apply]
  exact congrArg x8 (funext fun a => Fin.ext (by match a with | ⟨0, _⟩ => rfl))

/-- The reference's result array is G of the argument arrays. -/
theorem result_eq (x0 : (⟨S8192x128, .f32⟩ : BufTy).Contents (Elt Ideal)) (x1 x2 : (⟨S8192x8192x2, .f32⟩ : BufTy).Contents (Elt Ideal)) (x3 : (⟨S_, .f32⟩ : BufTy).Contents (Elt Ideal)) (x4 : (⟨S128x32, .f32⟩ : BufTy).Contents (Elt Ideal)) (x5 : (⟨S32, .f32⟩ : BufTy).Contents (Elt Ideal)) (x6 : (⟨S8192x32, .f32⟩ : BufTy).Contents (Elt Ideal)) (x7 x8 : (⟨S32, .f32⟩ : BufTy).Contents (Elt Ideal)) :
    val_main_v31 (F := Ideal) x0 x1 x2 x3 x4 x5 x6 x7 x8 = G x0 x1 x2 x3 x4 x5 x6 x7 x8 := by
  funext i
  rw [val_main_v31_apply, bias_at]
  unfold G
  by_cases h : (i 1).val < 8192
  · rw [dif_pos h]
    have e28 : val_main_v28 (F := Ideal) x0 x1 x2 x3 x4 x5 x6 x7 i
        = val_main_v21 (F := Ideal) x0 x1 x3 x4 x5 x6 x7 (ix3 (⟨(i 0).val, (i 0).isLt⟩ : Fin 2) (⟨(i 1).val, h⟩ : Fin 8192) (⟨(i 2).val, (i 2).isLt⟩ : Fin 32)) := by
      unfold val_main_v28
      exact concatenate_pair_apply_left (t := S2x16384x32) (s₁ := S2x8192x32) (s₂ := S2x8192x32) 1 _ _
        Gen.concatenates_S2x8192x32_S2x8192x32_S2x16384x32_d1 i rfl
        (ix3 (⟨(i 0).val, (i 0).isLt⟩ : Fin 2) (⟨(i 1).val, h⟩ : Fin 8192) (⟨(i 2).val, (i 2).isLt⟩ : Fin 32))
        (fun b => by match b with | ⟨0, _⟩ => rfl | ⟨1, _⟩ => rfl | ⟨2, _⟩ => rfl)
    rw [e28, sheet1_at x0 x1 x3 x4 x5 x6 x7]
    rfl
  · rw [dif_neg h]
    have h2 : (i 1).val < 16384 := (i 1).isLt
    have e28 : val_main_v28 (F := Ideal) x0 x1 x2 x3 x4 x5 x6 x7 i
        = val_main_v27 (F := Ideal) x0 x2 x3 x4 x5 x6 x7 (ix3 (⟨(i 0).val, (i 0).isLt⟩ : Fin 2) (⟨(i 1).val - 8192, by omega⟩ : Fin 8192) (⟨(i 2).val, (i 2).isLt⟩ : Fin 32)) := by
      unfold val_main_v28
      exact concatenate_pair_apply_right (t := S2x16384x32) (s₁ := S2x8192x32) (s₂ := S2x8192x32) 1 _ _
        Gen.concatenates_S2x8192x32_S2x8192x32_S2x16384x32_d1 i rfl rfl
        (ix3 (⟨(i 0).val, (i 0).isLt⟩ : Fin 2) (⟨(i 1).val - 8192, by omega⟩ : Fin 8192) (⟨(i 2).val, (i 2).isLt⟩ : Fin 32))
        (fun b hb => by match b with | ⟨0, _⟩ => rfl | ⟨1, _⟩ => exact absurd rfl hb | ⟨2, _⟩ => rfl)
        (by show (i 1).val - 8192 + 8192 = (i 1).val; omega)
    rw [e28, sheet2_at x0 x2 x3 x4 x5 x6 x7]
    rfl

end Cert.ReferenceIdeal.RefG

end
-- ==== Proof.KernelRun.lean ====
/-
  The idealized kernel program's run with every buffer's final contents kept.

  @main is four segments: the host operations before the first call, the two pipelined calls, and the host operations
  after them. The library's theorem for such a chain of segments ends, on every core, with each buffer that is not
  scoped to a call holding the last boundary's contents — the fold of the segments' effects over the launch memory.
  The frame of the program states of this only that the arguments are unchanged; here the same run is stated with the
  whole final valuation, so that the result buffer can be read.
-/
import proofs.«130500_j83030307766284_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and at the end every buffer that no call scopes
    holds, on every core, the contents the last segment boundary names (`W4`: the launch memory through the first host
    stretch, the two calls' write-backs and the last host stretch). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer and the nine argument buffers at the end of the run: the result at the last boundary's contents,
    the arguments as launched. -/
theorem run_named : θ_run defs (onTc (τ := τ) (main (F := F))) ⟨m, fun _ => 0, ρ⟩ (fun r => ∀ c : Dev nD,
      r.2.mem ((c.tc : Thread nD τ).loc main_v58) = W4 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v58 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_all m ρ)

end Cert.KernelIdeal.Named

end
-- ==== Proof.LibConcatPair.lean ====
/-
  Concatenations of two pieces agree piece by piece.

  A concatenation along an axis takes its operands as a list of (shape, array) pairs. Two such concatenations of two
  pieces, along the same axis into the same shape, are equal when the first pieces are equal and the second pieces are
  equal. Stated as a congruence so that an equation between two terms that differ only inside the pieces of a
  concatenation can be reduced to the equations between the pieces (a rewriting pass does not enter the pairs of the
  operand list by itself, the pieces' type being that of the pair's second component only up to unfolding).
-/
import Idealize.ShloMosaic.PureOps.ShapeOps

noncomputable section

namespace Cert.LibConcatPair

open Idealize.ShloMosaic

/-- Two concatenations of two pieces along one axis agree when the pieces agree one by one. -/
theorem concat_pair_congr {α : Type} {t s1 s2 : Shape} {d : Fin t.rank} {a a' : s1.Idx → α} {b b' : s2.Idx → α}
    (h : Shape.Concatenates [s1, s2] t d) (ha : a = a') (hb : b = b') :
    concatenate t d [⟨s1, a⟩, ⟨s2, b⟩] h = concatenate t d [⟨s1, a'⟩, ⟨s2, b'⟩] h := by
  subst ha; subst hb; rfl

/-- The same under any function of the concatenation (a reshape, a broadcast, a change of format around it). -/
theorem concat_pair_congr_under {α β : Type} {t s1 s2 : Shape} {d : Fin t.rank} {a a' : s1.Idx → α} {b b' : s2.Idx → α}
    (f : (t.Idx → α) → β) (h : Shape.Concatenates [s1, s2] t d) (ha : a = a') (hb : b = b') :
    f (concatenate t d [⟨s1, a⟩, ⟨s2, b⟩] h) = f (concatenate t d [⟨s1, a'⟩, ⟨s2, b'⟩] h) :=
  congrArg f (concat_pair_congr h ha hb)

end Cert.LibConcatPair

end
-- ==== Proof.HostTerms.lean ====
/-
  The arrays the host operations build around the two calls, as functions of the arrays they are built from.

  Before the calls: the embedded node features X·W1 + b1; the matrix [N, 64] whose left half is α·W2 and right half
  (1 − α)·(X·W1 + b1); its interleaving with a zero matrix into [2N, 64] (row 2s + q is row s of the first operand when
  q = 0, of the second when q = 1); and the weight matrix [2N, 128] of the two interleavings side by side, narrowed to
  bf16. After the calls: for one call's output [N, 128], the sum of two of its column bands of width 32 plus α·b2; the
  two calls' results stacked along the rows; and the two channels stacked along a new leading axis, the last bias added.
-/
import proofs.«130500_j83030307766284_2_alg».proof.Proof.Gen.KernelIdeal
import proofs.«130500_j83030307766284_2_alg».proof.Proof.LibConcatPair
import Idealize.ShloMosaic.PureOps.Ideal.Laws
import Idealize.ShloMosaic.Lib.Pipeline.Value
import Idealize.ShloMosaic.Lib.ValueIdx

noncomputable section

namespace Cert.KernelIdeal.HostTerms

open Cert.KernelIdeal Cert.KernelIdeal.Facts₀ Idealize.ShloMosaic Idealize.ShloMosaic.ValueIdx

/-- The embedded node features X·W1 + b1. -/
def xdwArr (X : FVec Ideal S8192x128 .f32) (W1 : FVec Ideal S128x32 .f32) (b1 : FVec Ideal S32 .f32) : FVec Ideal S8192x32 .f32 :=
  addf (Host.dotGeneral dot_S8192x128_S128x32_S8192x32_1_0_0_1_n_n none X W1)
    (broadcastInDim S8192x32 ![0, 1] bcast_S1x32_S8192x32_0_1 (broadcastInDim S1x32 ![1] bcast_S32_S1x32_1 b1))

/-- [α·W2 | (1 − α)·XD], side by side. -/
def mixed (α : FVec Ideal S_ .f32) (W2 XD : FVec Ideal S8192x32 .f32) : FVec Ideal S8192x64 .f32 :=
  concatenate S8192x64 1
    [⟨S8192x32, mulf (broadcastInDim S8192x32 ![] bcast_S_S8192x32 α) W2⟩,
     ⟨S8192x32, mulf (broadcastInDim S8192x32 ![] bcast_S_S8192x32 (subf (constant S_ .f32 0x3F800000#32) α)) XD⟩]
    concatenates_S8192x32_S8192x32_S8192x64_d1

/-- The zero matrix [N, 64]. -/
def zeros : FVec Ideal S8192x64 .f32 :=
  broadcastInDim S8192x64 ![] bcast_S_S8192x64 (constant S_ .f32 0x00000000#32)

/-- Two [N, 64] matrices interleaved row by row into [2N, 64]. -/
def interleaved (A B : FVec Ideal S8192x64 .f32) : FVec Ideal S16384x64 .f32 :=
  shapeCast S16384x64
    (concatenate S8192x2x64 1
      [⟨S8192x1x64, broadcastInDim S8192x1x64 ![0, 2] bcast_S8192x64_S8192x1x64_0_2 A⟩,
       ⟨S8192x1x64, broadcastInDim S8192x1x64 ![0, 2] bcast_S8192x64_S8192x1x64_0_2 B⟩]
      concatenates_S8192x1x64_S8192x1x64_S8192x2x64_d1)
    shapeCasts_S8192x2x64_S16384x64

/-- The weight matrix [2N, 128]: channel 0's interleaving beside channel 1's, narrowed to bf16. -/
def weights (C : FVec Ideal S8192x64 .f32) : FVec Ideal S16384x128 .bf16 :=
  truncf .bf16
    (concatenate S16384x128 1 [⟨S16384x64, interleaved C zeros⟩, ⟨S16384x64, interleaved zeros C⟩]
      concatenates_S16384x64_S16384x64_S16384x128_d1)
    bitsLt_bf16_f32

/-- An edge tensor [N, N, 2] read as a matrix [N, 2N]. -/
def flat (E : FVec Ideal S8192x8192x2 .f32) : FVec Ideal S8192x16384 .f32 :=
  shapeCast S8192x16384 E shapeCasts_S8192x8192x2_S8192x16384

/-- α·b2. -/
def scaledBias (α : FVec Ideal S_ .f32) (b2 : FVec Ideal S32 .f32) : FVec Ideal S32 .f32 :=
  mulf (broadcastInDim S32 ![] bcast_S_S32 α) b2

/-- One channel's sheet from a call's output: the two column bands at offsets o1 and o2 added, plus the row ab. -/
def bandSum (P : FVec Ideal S8192x128 .f32) (o1 o2 : Nat) (h1 : S8192x128.Slices ![0, o1] S8192x32) (h2 : S8192x128.Slices ![0, o2] S8192x32)
    (ab : FVec Ideal S32 .f32) : FVec Ideal S8192x32 .f32 :=
  addf (addf (extractStridedSlice S8192x32 ![0, o1] P h1) (extractStridedSlice S8192x32 ![0, o2] P h2))
    (broadcastInDim S8192x32 ![0, 1] bcast_S1x32_S8192x32_0_1 (broadcastInDim S1x32 ![1] bcast_S32_S1x32_1 ab))

/-- Two [N, 32] sheets stacked along the rows. -/
def stacked (A B : FVec Ideal S8192x32 .f32) : FVec Ideal S16384x32 .f32 :=
  concatenate S16384x32 0 [⟨S8192x32, A⟩, ⟨S8192x32, B⟩] concatenates_S8192x32_S8192x32_S16384x32_d0

/-- The result: the two channels along a new leading axis, the last bias added. -/
def result (Y0 Y1 : FVec Ideal S16384x32 .f32) (bias : FVec Ideal S32 .f32) : FVec Ideal S2x16384x32 .f32 :=
  addf
    (concatenate S2x16384x32 0
      [⟨S1x16384x32, broadcastInDim S1x16384x32 ![1, 2] bcast_S16384x32_S1x16384x32_1_2 Y0⟩,
       ⟨S1x16384x32, broadcastInDim S1x16384x32 ![1, 2] bcast_S16384x32_S1x16384x32_1_2 Y1⟩]
      concatenates_S1x16384x32_S1x16384x32_S2x16384x32_d0)
    (broadcastInDim S2x16384x32 ![0, 1, 2] bcast_S1x1x32_S2x16384x32_0_1_2 (broadcastInDim S1x1x32 ![2] bcast_S32_S1x1x32_2 bias))

end Cert.KernelIdeal.HostTerms

end
-- ==== Proof.HostState.lean ====
/-
  What the buffers hold at the boundaries of @main's segments, as the host-side terms of the arguments.

  Entering the first call, the left operand's array is the first edge tensor flattened and the right operand's array is
  the weight matrix built from α, W2 and X·W1 + b1. Entering the second call, the left operand's array is the second
  edge tensor flattened and the right operand's array is still that weight matrix (the first call only reads it).
  After the last host stretch the result buffer is the stacking of the band sums of the two calls' output arrays.
-/
import proofs.«130500_j83030307766284_2_alg».proof.Proof.Gen.KernelIdeal.Frame
import proofs.«130500_j83030307766284_2_alg».proof.Proof.HostTerms
import Idealize.ShloMosaic.Lib.StableHlo.Run
import Idealize.ShloMosaic.Lib.Pipeline.Cells

set_option maxRecDepth 16384

noncomputable section

namespace Cert.KernelIdeal.HostState

open Cert.KernelIdeal Cert.KernelIdeal.Gen Cert.KernelIdeal.HostTerms Idealize.ShloMosaic Idealize.ShloMosaic.TcCoe Idealize.SL.Sem
open Idealize.ShloMosaic.StableHlo Cert.LibConcatPair
open Idealize.ShloMosaic.Pipeline (Dat Cfg Window)

variable (m : (ℓ : Loc nD τ sig) → Buf (Elt Ideal) ℓ) (ρ : Dev nD → PrngReg)

/-- The argument arrays as launched, at their vector types. -/
abbrev aX (c : Dev nD) : FVec Ideal S8192x128 .f32 := m ((c : Thread nD τ).loc main_arg0)
abbrev aE0 (c : Dev nD) : FVec Ideal S8192x8192x2 .f32 := m ((c : Thread nD τ).loc main_arg1)
abbrev aE1 (c : Dev nD) : FVec Ideal S8192x8192x2 .f32 := m ((c : Thread nD τ).loc main_arg2)
abbrev aα (c : Dev nD) : FVec Ideal S_ .f32 := m ((c : Thread nD τ).loc main_arg3)
abbrev aW1 (c : Dev nD) : FVec Ideal S128x32 .f32 := m ((c : Thread nD τ).loc main_arg4)
abbrev ab1 (c : Dev nD) : FVec Ideal S32 .f32 := m ((c : Thread nD τ).loc main_arg5)
abbrev aW2 (c : Dev nD) : FVec Ideal S8192x32 .f32 := m ((c : Thread nD τ).loc main_arg6)
abbrev ab2 (c : Dev nD) : FVec Ideal S32 .f32 := m ((c : Thread nD τ).loc main_arg7)
abbrev abias (c : Dev nD) : FVec Ideal S32 .f32 := m ((c : Thread nD τ).loc main_arg8)

/-- The weight matrix of the arguments. -/
abbrev theWeights (c : Dev nD) : FVec Ideal S16384x128 .bf16 :=
  weights (mixed (aα m c) (aW2 m c) (xdwArr (aX m c) (aW1 m c) (ab1 m c)))

/-- Entering the first call, its left operand's array is the first edge tensor flattened. -/
theorem left0 (c : Dev nD) : V1 m ρ c main_v21 = flat (aE0 m c) := by
  show StableHlo.after hostOps0 (W0 m ρ c) (Proc.devRef .tc main_v21) = _
  after_results_simp <;> rfl

set_option maxHeartbeats 2000000 in
/-- Entering the first call, its right operand's array is the weight matrix. -/
theorem right0 (c : Dev nD) : V1 m ρ c main_v20 = theWeights m c := by
  show StableHlo.after hostOps0 (W0 m ρ c) (Proc.devRef .tc main_v20) = _
  after_results_simp
  unfold theWeights weights
  refine congrArg (fun v : FVec Ideal S16384x128 .f32 => truncf .bf16 v Facts₀.bitsLt_bf16_f32) (concat_pair_congr _ ?_ ?_)
  · after_results_simp
    unfold interleaved
    refine congrArg (fun v : FVec Ideal S8192x2x64 .f32 => shapeCast S16384x64 v Facts₀.shapeCasts_S8192x2x64_S16384x64) (concat_pair_congr _ ?_ ?_)
    · after_results_simp
      unfold mixed
      refine congrArg (fun v : FVec Ideal S8192x64 .f32 => broadcastInDim S8192x1x64 ![0, 2] Facts₀.bcast_S8192x64_S8192x1x64_0_2 v) (concat_pair_congr _ ?_ ?_)
      · after_results_simp <;> rfl
      · after_results_simp <;> rfl
    · after_results_simp <;> rfl
  · after_results_simp
    unfold interleaved
    refine congrArg (fun v : FVec Ideal S8192x2x64 .f32 => shapeCast S16384x64 v Facts₀.shapeCasts_S8192x2x64_S16384x64) (concat_pair_congr _ ?_ ?_)
    · after_results_simp <;> rfl
    · after_results_simp
      unfold mixed
      refine congrArg (fun v : FVec Ideal S8192x64 .f32 => broadcastInDim S8192x1x64 ![0, 2] Facts₀.bcast_S8192x64_S8192x1x64_0_2 v) (concat_pair_congr _ ?_ ?_)
      · after_results_simp <;> rfl
      · after_results_simp <;> rfl

/-- Entering the second call, its left operand's array is the second edge tensor flattened (the first call does not
    touch that buffer). -/
theorem left1 (c : Dev nD) : V2 m ρ c main_v22 = flat (aE1 m c) := by
  refine (W2_of_ne m ρ c main_v22 (by decide)).trans ?_
  show StableHlo.after hostOps0 (W0 m ρ c) (Proc.devRef .tc main_v22) = _
  after_results_simp <;> rfl

/-- Entering the second call, its right operand's array is the weight matrix still: the first call only reads it. -/
theorem right1 (c : Dev nD) : V2 m ρ c main_v20 = theWeights m c :=
  ((W2_arr m ρ c 1).trans (((dat0 (V1 m ρ) c).arrAt_in 1 rfl cfg0.N).trans (A_eq0 (V1 m ρ) c 1))).trans (right0 m ρ c)

/-- A buffer no segment writes holds its launch contents at the last call's exit. -/
theorem kept3 (c : Dev nD) : W3 m ρ c (Proc.devRef .tc main_arg3) = m ((c : Thread nD τ).loc main_arg3) := by
  refine (W3_of_ne m ρ c main_arg3 (by decide)).trans ((W2_of_ne m ρ c main_arg3 (by decide)).trans ?_)
  show StableHlo.after hostOps0 (W0 m ρ c) (Proc.devRef .tc main_arg3) = _
  after_results_simp <;> rfl
theorem kept7 (c : Dev nD) : W3 m ρ c (Proc.devRef .tc main_arg7) = m ((c : Thread nD τ).loc main_arg7) := by
  refine (W3_of_ne m ρ c main_arg7 (by decide)).trans ((W2_of_ne m ρ c main_arg7 (by decide)).trans ?_)
  show StableHlo.after hostOps0 (W0 m ρ c) (Proc.devRef .tc main_arg7) = _
  after_results_simp <;> rfl
theorem kept8 (c : Dev nD) : W3 m ρ c (Proc.devRef .tc main_arg8) = m ((c : Thread nD τ).loc main_arg8) := by
  refine (W3_of_ne m ρ c main_arg8 (by decide)).trans ((W2_of_ne m ρ c main_arg8 (by decide)).trans ?_)
  show StableHlo.after hostOps0 (W0 m ρ c) (Proc.devRef .tc main_arg8) = _
  after_results_simp <;> rfl

/-- The first call's output array at the last call's exit is what the first call left. -/
theorem out0 (c : Dev nD) : W3 m ρ c (Proc.devRef .tc main_v23) = (dat0 (V1 m ρ) c).arrAt 2 cfg0.N :=
  (W3_of_ne m ρ c main_v23 (by decide)).trans (W2_arr m ρ c 2)
/-- The second call's output array at its exit. -/
theorem out1 (c : Dev nD) : W3 m ρ c (Proc.devRef .tc main_v24) = (dat1 (V2 m ρ) c).arrAt 2 cfg1.N :=
  W3_arr m ρ c 2

/-- The sheet of channel e (bands at 64·e and 64·e + 32) of one call's output. -/
abbrev sheetOf (P : FVec Ideal S8192x128 .f32) (ab : FVec Ideal S32 .f32) : Fin 2 → FVec Ideal S8192x32 .f32
  | ⟨0, _⟩ => bandSum P 0 32 Facts₀.slices_S8192x128_S8192x32_0_0 Facts₀.slices_S8192x128_S8192x32_0_32 ab
  | ⟨1, _⟩ => bandSum P 64 96 Facts₀.slices_S8192x128_S8192x32_0_64 Facts₀.slices_S8192x128_S8192x32_0_96 ab

set_option maxHeartbeats 2000000 in
/-- After the last host stretch the result buffer is the stacking of the band sums of the two calls' outputs, the last
    bias added. -/
theorem tail (c : Dev nD) (P0 P1 : FVec Ideal S8192x128 .f32)
    (h0 : W3 m ρ c (Proc.devRef .tc main_v23) = P0) (h1 : W3 m ρ c (Proc.devRef .tc main_v24) = P1) :
    W4 m ρ c (Proc.devRef .tc main_v58)
      = result (stacked (sheetOf P0 (scaledBias (aα m c) (ab2 m c)) 0) (sheetOf P1 (scaledBias (aα m c) (ab2 m c)) 0))
          (stacked (sheetOf P0 (scaledBias (aα m c) (ab2 m c)) 1) (sheetOf P1 (scaledBias (aα m c) (ab2 m c)) 1)) (abias m c) := by
  show StableHlo.after hostOps2 (W3 m ρ c) (Proc.devRef .tc main_v58) = _
  after_results_simp
  rw [kept8]
  unfold result
  refine congrArg₂ addf (concat_pair_congr _ ?_ ?_) rfl
  · after_results_simp
    unfold stacked
    refine congrArg (fun v : FVec Ideal S16384x32 .f32 => broadcastInDim S1x16384x32 ![1, 2] Facts₀.bcast_S16384x32_S1x16384x32_1_2 v) (concat_pair_congr _ ?_ ?_)
    · after_results_simp
      rw [h0, kept3, kept7]; rfl
    · after_results_simp
      rw [h1, kept3, kept7]; rfl
  · after_results_simp
    unfold stacked
    refine congrArg (fun v : FVec Ideal S16384x32 .f32 => broadcastInDim S1x16384x32 ![1, 2] Facts₀.bcast_S16384x32_S1x16384x32_1_2 v) (concat_pair_congr _ ?_ ?_)
    · after_results_simp
      rw [h0, kept3, kept7]; rfl
    · after_results_simp
      rw [h1, kept3, kept7]; rfl

end Cert.KernelIdeal.HostState

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«130500_j83030307766284_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«130500_j83030307766284_2_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.HostRead.lean ====
/-
  The host-side arrays read at an index.

  Each array built by the host operations around the calls is read here at an entry given by coordinates: the mixed
  matrix [α·W2 | (1 − α)·XD] in its left and right halves; the interleaving of two matrices (row 2s + q is row s of
  operand q); the weight matrix, whose row 2s + q and column 64c + g hold the mixed matrix's (s, g) when q = c and zero
  otherwise; an edge tensor flattened (column 2s + q is entry (s, q)); and after the calls the band sums, the stacking
  of the two calls' sheets along the rows, and the stacking of the two channels with the last bias added.
-/
import proofs.«130500_j83030307766284_2_alg».proof.Proof.HostTerms
import proofs.«130500_j83030307766284_2_alg».proof.Proof.LibHostAffine
import Idealize.ShloMosaic.Lib.IdealHost

set_option maxRecDepth 65536

noncomputable section

open scoped BigOperators

namespace Cert.KernelIdeal.HostRead

open Cert.KernelIdeal Cert.KernelIdeal.Facts₀ Cert.KernelIdeal.HostTerms Idealize.ShloMosaic Idealize.ShloMosaic.ValueIdx

/-- Row 2s + q of an interleaved matrix. -/
def row2 (s : Fin 8192) (q : Fin 2) : Fin 16384 := ⟨2 * s.val + q.val, by have := s.isLt; have := q.isLt; omega⟩
/-- Column 64c + g of the weight matrix. -/
def col64 (c : Fin 2) (g : Fin 64) : Fin 128 := ⟨64 * c.val + g.val, by have := c.isLt; have := g.isLt; omega⟩
/-- Column f of the left half, column 32 + f of the right half, of the mixed matrix. -/
def lo32 (f : Fin 32) : Fin 64 := ⟨f.val, by have := f.isLt; omega⟩
def hi32 (f : Fin 32) : Fin 64 := ⟨32 + f.val, by have := f.isLt; omega⟩

/-- The embedded node features at node s and filter f. -/
theorem xdwArr_apply (X : FVec Ideal S8192x128 .f32) (W1 : FVec Ideal S128x32 .f32) (b1 : FVec Ideal S32 .f32) (s : Fin 8192) (f : Fin 32) :
    xdwArr X W1 b1 (ix2 s f) = (∑ k : Fin 128, X (ix2 s k) * W1 (ix2 k f)) + b1 (ix1 f) := by
  unfold xdwArr
  exact Cert.LibHostAffine.affine_apply dot_S8192x128_S128x32_S8192x32_1_0_0_1_n_n rfl rfl rfl rfl rfl rfl none X W1 b1 _ _ s f

/-- The mixed matrix in its left half: α·W2. -/
theorem mixed_lo (α : FVec Ideal S_ .f32) (W2 XD : FVec Ideal S8192x32 .f32) (s : Fin 8192) (f : Fin 32) :
    mixed α W2 XD (ix2 s (lo32 f)) = α ix0 * W2 (ix2 s f) := by
  unfold mixed
  refine (concatenate_pair_apply_left (t := S8192x64) (s₁ := S8192x32) (s₂ := S8192x32) 1 _ _
    concatenates_S8192x32_S8192x32_S8192x64_d1 (ix2 s (lo32 f)) rfl (ix2 s f)
    (fun b => by match b with | ⟨0, _⟩ => rfl | ⟨1, _⟩ => rfl)).trans ?_
  rw [mulf_apply, broadcastInDim_scalar_apply]

/-- The mixed matrix in its right half: (1 − α)·XD. -/
theorem mixed_hi (α : FVec Ideal S_ .f32) (W2 XD : FVec Ideal S8192x32 .f32) (s : Fin 8192) (f : Fin 32) :
    mixed α W2 XD (ix2 s (hi32 f)) = (Ideal.ofBits .f32 0x3F800000#32 - α ix0) * XD (ix2 s f) := by
  unfold mixed
  refine (concatenate_pair_apply_right (t := S8192x64) (s₁ := S8192x32) (s₂ := S8192x32) 1 _ _
    concatenates_S8192x32_S8192x32_S8192x64_d1 (ix2 s (hi32 f)) rfl rfl (ix2 s f)
    (fun b hb => by match b with | ⟨0, _⟩ => rfl | ⟨1, _⟩ => exact absurd rfl hb)
    (by show f.val + 32 = 32 + f.val; omega)).trans ?_
  rw [mulf_apply, broadcastInDim_scalar_apply]
  rfl

/-- The zero matrix at any entry. -/
theorem zeros_apply (i : S8192x64.Idx) : zeros i = 0 := by
  unfold zeros
  rw [broadcastInDim_scalar_apply]
  exact Ideal.ofBits_zero_f32

/-- A broadcast that adds a unit middle axis reads the operand at the outer coordinates. -/
theorem addMiddle_apply (A : FVec Ideal S8192x64 .f32) (s : Fin 8192) (g : Fin 64) :
    broadcastInDim S8192x1x64 ![0, 2] bcast_S8192x64_S8192x1x64_0_2 A (ix3 s (0 : Fin 1) g) = A (ix2 s g) :=
  broadcastInDim_apply _ bcast_S8192x64_S8192x1x64_0_2 A _ (ix2 s g) (fun a => by
    match a with
    | ⟨0, _⟩ => show s.val = if (8192 : Nat) = 1 then 0 else s.val; rw [if_neg (by decide)]
    | ⟨1, _⟩ => show g.val = if (64 : Nat) = 1 then 0 else g.val; rw [if_neg (by decide)])

/-- Row 2s of the interleaving is row s of the first operand; -/
theorem interleaved_even (A B : FVec Ideal S8192x64 .f32) (s : Fin 8192) (g : Fin 64) :
    interleaved A B (ix2 (row2 s 0) g) = A (ix2 s g) := by
  unfold interleaved
  refine (shapeCast_apply _ shapeCasts_S8192x2x64_S16384x64 (ix2 (row2 s 0) g) (ix3 s (0 : Fin 2) g) ?_).trans ?_
  · rw [Shape.rowMajor_val_three, Shape.rowMajor_val_two]
    show (s.val * 2 + 0) * 64 + g.val = (2 * s.val + 0) * 64 + g.val
    omega
  refine (concatenate_pair_apply_left (t := S8192x2x64) (s₁ := S8192x1x64) (s₂ := S8192x1x64) 1 _ _
    concatenates_S8192x1x64_S8192x1x64_S8192x2x64_d1 (ix3 s (0 : Fin 2) g) rfl (ix3 s (0 : Fin 1) g)
    (fun b => by match b with | ⟨0, _⟩ => rfl | ⟨1, _⟩ => rfl | ⟨2, _⟩ => rfl)).trans ?_
  exact addMiddle_apply A s g

/-- row 2s + 1 is row s of the second. -/
theorem interleaved_odd (A B : FVec Ideal S8192x64 .f32) (s : Fin 8192) (g : Fin 64) :
    interleaved A B (ix2 (row2 s 1) g) = B (ix2 s g) := by
  unfold interleaved
  refine (shapeCast_apply _ shapeCasts_S8192x2x64_S16384x64 (ix2 (row2 s 1) g) (ix3 s (1 : Fin 2) g) ?_).trans ?_
  · rw [Shape.rowMajor_val_three, Shape.rowMajor_val_two]
    show (s.val * 2 + 1) * 64 + g.val = (2 * s.val + 1) * 64 + g.val
    omega
  refine (concatenate_pair_apply_right (t := S8192x2x64) (s₁ := S8192x1x64) (s₂ := S8192x1x64) 1 _ _
    concatenates_S8192x1x64_S8192x1x64_S8192x2x64_d1 (ix3 s (1 : Fin 2) g) rfl rfl (ix3 s (0 : Fin 1) g)
    (fun b hb => by match b with | ⟨0, _⟩ => rfl | ⟨1, _⟩ => exact absurd rfl hb | ⟨2, _⟩ => rfl)
    (by rfl)).trans ?_
  exact addMiddle_apply B s g

/-- The weight matrix: row 2s + q, column 64c + g holds the mixed matrix's (s, g) when q = c, zero otherwise. -/
theorem weights_apply (C : FVec Ideal S8192x64 .f32) (s : Fin 8192) (q c : Fin 2) (g : Fin 64) :
    weights C (ix2 (row2 s q) (col64 c g)) = if q = c then C (ix2 s g) else 0 := by
  unfold weights
  rw [truncf_apply]
  have hl : ∀ q' : Fin 2, concatenate S16384x128 1 [⟨S16384x64, interleaved C zeros⟩, ⟨S16384x64, interleaved zeros C⟩]
      concatenates_S16384x64_S16384x64_S16384x128_d1 (ix2 (row2 s q') (col64 0 g)) = interleaved C zeros (ix2 (row2 s q') g) := fun q' =>
    concatenate_pair_apply_left (t := S16384x128) (s₁ := S16384x64) (s₂ := S16384x64) 1 _ _
      concatenates_S16384x64_S16384x64_S16384x128_d1 _ rfl (ix2 (row2 s q') g)
      (fun b => by match b with | ⟨0, _⟩ => rfl | ⟨1, _⟩ => show g.val = 64 * 0 + g.val; omega)
  have hr : ∀ q' : Fin 2, concatenate S16384x128 1 [⟨S16384x64, interleaved C zeros⟩, ⟨S16384x64, interleaved zeros C⟩]
      concatenates_S16384x64_S16384x64_S16384x128_d1 (ix2 (row2 s q') (col64 1 g)) = interleaved zeros C (ix2 (row2 s q') g) := fun q' =>
    concatenate_pair_apply_right (t := S16384x128) (s₁ := S16384x64) (s₂ := S16384x64) 1 _ _
      concatenates_S16384x64_S16384x64_S16384x128_d1 _ rfl rfl (ix2 (row2 s q') g)
      (fun b hb => by match b with | ⟨0, _⟩ => rfl | ⟨1, _⟩ => exact absurd rfl hb)
      (by show g.val + 64 = 64 * 1 + g.val; omega)
  fin_cases c <;> fin_cases q
  · show concatenate S16384x128 1 _ _ (ix2 (row2 s 0) (col64 0 g)) = _
    rw [hl 0, interleaved_even]; rfl
  · show concatenate S16384x128 1 _ _ (ix2 (row2 s 1) (col64 0 g)) = _
    rw [hl 1, interleaved_odd, zeros_apply]; rfl
  · show concatenate S16384x128 1 _ _ (ix2 (row2 s 0) (col64 1 g)) = _
    rw [hr 0, interleaved_even, zeros_apply]; rfl
  · show concatenate S16384x128 1 _ _ (ix2 (row2 s 1) (col64 1 g)) = _
    rw [hr 1, interleaved_odd]; rfl

/-- An edge tensor flattened: column 2s + q of row n is the entry (n, s, q). -/
theorem flat_apply (E : FVec Ideal S8192x8192x2 .f32) (n s : Fin 8192) (q : Fin 2) :
    flat E (ix2 n (row2 s q)) = E (ix3 n s q) := by
  unfold flat
  refine shapeCast_apply _ shapeCasts_S8192x8192x2_S8192x16384 (ix2 n (row2 s q)) (ix3 n s q) ?_
  rw [Shape.rowMajor_val_three, Shape.rowMajor_val_two]
  show (n.val * 8192 + s.val) * 2 + q.val = n.val * 16384 + (2 * s.val + q.val)
  omega

/-- α·b2 at filter f. -/
theorem scaledBias_apply (α : FVec Ideal S_ .f32) (b2 : FVec Ideal S32 .f32) (f : Fin 32) :
    scaledBias α b2 (ix1 f) = α ix0 * b2 (ix1 f) := by
  unfold scaledBias
  rw [mulf_apply, broadcastInDim_scalar_apply]

/-- A band sum at node n and filter f: the two bands' entries added, plus the row's entry. -/
theorem bandSum_apply (P : FVec Ideal S8192x128 .f32) (o1 o2 : Nat) (h1 : S8192x128.Slices ![0, o1] S8192x32) (h2 : S8192x128.Slices ![0, o2] S8192x32)
    (ab : FVec Ideal S32 .f32) (n : Fin 8192) (f : Fin 32) (c1 c2 : Fin 128) (hc1 : c1.val = o1 + f.val) (hc2 : c2.val = o2 + f.val) :
    bandSum P o1 o2 h1 h2 ab (ix2 n f) = (P (ix2 n c1) + P (ix2 n c2)) + ab (ix1 f) := by
  unfold bandSum
  rw [addf_apply, addf_apply, Cert.LibHostAffine.bias_apply ab bcast_S32_S1x32_1 bcast_S1x32_S8192x32_0_1 n f]
  rw [extractStridedSlice_apply ![0, o1] P h1 (ix2 n f) (ix2 n c1) (fun a => by
      match a with
      | ⟨0, _⟩ => show n.val = 0 + n.val; omega
      | ⟨1, _⟩ => exact hc1),
    extractStridedSlice_apply ![0, o2] P h2 (ix2 n f) (ix2 n c2) (fun a => by
      match a with
      | ⟨0, _⟩ => show n.val = 0 + n.val; omega
      | ⟨1, _⟩ => exact hc2)]

/-- Two sheets stacked along the rows: the first N rows are the first sheet's, -/
theorem stacked_lo (A B : FVec Ideal S8192x32 .f32) (n : Fin 8192) (f : Fin 32) (r : Fin 16384) (hr : r.val = n.val) :
    stacked A B (ix2 r f) = A (ix2 n f) := by
  unfold stacked
  exact concatenate_pair_apply_left (t := S16384x32) (s₁ := S8192x32) (s₂ := S8192x32) 0 _ _
    concatenates_S8192x32_S8192x32_S16384x32_d0 (ix2 r f) rfl (ix2 n f)
    (fun b => by match b with | ⟨0, _⟩ => exact hr.symm | ⟨1, _⟩ => rfl)

/-- the last N the second's. -/
theorem stacked_hi (A B : FVec Ideal S8192x32 .f32) (n : Fin 8192) (f : Fin 32) (r : Fin 16384) (hr : r.val = n.val + 8192) :
    stacked A B (ix2 r f) = B (ix2 n f) := by
  unfold stacked
  exact concatenate_pair_apply_right (t := S16384x32) (s₁ := S8192x32) (s₂ := S8192x32) 0 _ _
    concatenates_S8192x32_S8192x32_S16384x32_d0 (ix2 r f) rfl rfl (ix2 n f)
    (fun b hb => by match b with | ⟨0, _⟩ => exact absurd rfl hb | ⟨1, _⟩ => rfl)
    (by show n.val + 8192 = r.val; omega)

/-- A broadcast that adds a unit leading axis reads the operand at the trailing coordinates. -/
theorem addLeading_apply (Y : FVec Ideal S16384x32 .f32) (r : Fin 16384) (f : Fin 32) :
    broadcastInDim S1x16384x32 ![1, 2] bcast_S16384x32_S1x16384x32_1_2 Y (ix3 (0 : Fin 1) r f) = Y (ix2 r f) :=
  broadcastInDim_apply _ bcast_S16384x32_S1x16384x32_1_2 Y _ (ix2 r f) (fun a => by
    match a with
    | ⟨0, _⟩ => show r.val = if (16384 : Nat) = 1 then 0 else r.val; rw [if_neg (by decide)]
    | ⟨1, _⟩ => show f.val = if (32 : Nat) = 1 then 0 else f.val; rw [if_neg (by decide)])

/-- The last bias broadcast over the result reads its entry at the filter. -/
theorem lastBias_apply (bias : FVec Ideal S32 .f32) (e : Fin 2) (r : Fin 16384) (f : Fin 32) :
    broadcastInDim S2x16384x32 ![0, 1, 2] bcast_S1x1x32_S2x16384x32_0_1_2 (broadcastInDim S1x1x32 ![2] bcast_S32_S1x1x32_2 bias) (ix3 e r f)
      = bias (ix1 f) := by
  rw [broadcastInDim_apply _ bcast_S1x1x32_S2x16384x32_0_1_2 _ (ix3 e r f) (ix3 (0 : Fin 1) (0 : Fin 1) f) (fun a => by
    match a with
    | ⟨0, _⟩ => show 0 = if (1 : Nat) = 1 then 0 else e.val; rw [if_pos rfl]
    | ⟨1, _⟩ => show 0 = if (1 : Nat) = 1 then 0 else r.val; rw [if_pos rfl]
    | ⟨2, _⟩ => show f.val = if (32 : Nat) = 1 then 0 else f.val; rw [if_neg (by decide)])]
  exact broadcastInDim_apply _ bcast_S32_S1x1x32_2 bias _ (ix1 f) (fun a => by
    match a with
    | ⟨0, _⟩ => show f.val = if (32 : Nat) = 1 then 0 else f.val; rw [if_neg (by decide)])

/-- The result at channel 0 is the first stacked sheet plus the last bias; -/
theorem result_zero (Y0 Y1 : FVec Ideal S16384x32 .f32) (bias : FVec Ideal S32 .f32) (r : Fin 16384) (f : Fin 32) :
    result Y0 Y1 bias (ix3 (0 : Fin 2) r f) = Y0 (ix2 r f) + bias (ix1 f) := by
  unfold result
  rw [addf_apply, lastBias_apply]
  congr 1
  refine (concatenate_pair_apply_left (t := S2x16384x32) (s₁ := S1x16384x32) (s₂ := S1x16384x32) 0 _ _
    concatenates_S1x16384x32_S1x16384x32_S2x16384x32_d0 (ix3 (0 : Fin 2) r f) rfl (ix3 (0 : Fin 1) r f)
    (fun b => by match b with | ⟨0, _⟩ => rfl | ⟨1, _⟩ => rfl | ⟨2, _⟩ => rfl)).trans ?_
  exact addLeading_apply Y0 r f

/-- at channel 1 the second. -/
theorem result_one (Y0 Y1 : FVec Ideal S16384x32 .f32) (bias : FVec Ideal S32 .f32) (r : Fin 16384) (f : Fin 32) :
    result Y0 Y1 bias (ix3 (1 : Fin 2) r f) = Y1 (ix2 r f) + bias (ix1 f) := by
  unfold result
  rw [addf_apply, lastBias_apply]
  congr 1
  refine (concatenate_pair_apply_right (t := S2x16384x32) (s₁ := S1x16384x32) (s₂ := S1x16384x32) 0 _ _
    concatenates_S1x16384x32_S1x16384x32_S2x16384x32_d0 (ix3 (1 : Fin 2) r f) rfl rfl (ix3 (0 : Fin 1) r f)
    (fun b hb => by match b with | ⟨0, _⟩ => exact absurd rfl hb | ⟨1, _⟩ => rfl | ⟨2, _⟩ => rfl)
    (by rfl)).trans ?_
  exact addLeading_apply Y1 r f

end Cert.KernelIdeal.HostRead

end
-- ==== Proof.Block.lean ====
/-
  What one grid point of either call computes, read at an entry.

  The body loads its [128, 16384] block of the reshaped edge tensor and the whole [16384, 128] weight matrix, narrows
  the first to bf16 (the identity on the extended reals), and stores their matrix product into the zero accumulator.
  So the stored [128, 128] block has at row p and column q the sum over the 16384 contraction positions k of
  (left block)(p, k) · (weights)(k, q).
-/
import proofs.«130500_j83030307766284_2_alg».proof.Proof.Gen.KernelIdeal.Skeleton
import proofs.«130500_j83030307766284_2_alg».proof.Proof.LibMatmulNN
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- The first call's stored block at the entry (p, q). -/
theorem pay0_apply (x0 : Vec Ideal S128x16384 .f32) (x1 : Vec Ideal S16384x128 .bf16) (p q : Fin 128) :
    k0_pay1 (F := Ideal) x0 x1 (ix2 p q) = ∑ k : Fin 16384, x0 (ix2 p k) * x1 (ix2 k q) := by
  unfold k0_pay1
  rw [shapeCast_self, shapeCast_self]
  exact Cert.LibMatmulNN.matmul_zero_apply' dot_S128x16384_S16384x128_S128x128_1_0_0_1_n_n rfl rfl rfl rfl rfl rfl none _ _ p q

/-- The second call's stored block at the entry (p, q): the same product. -/
theorem pay1_apply (x0 : Vec Ideal S128x16384 .f32) (x1 : Vec Ideal S16384x128 .bf16) (p q : Fin 128) :
    k1_pay1 (F := Ideal) x0 x1 (ix2 p q) = ∑ k : Fin 16384, x0 (ix2 p k) * x1 (ix2 k q) := by
  unfold k1_pay1
  rw [shapeCast_self, shapeCast_self]
  exact Cert.LibMatmulNN.matmul_zero_apply' dot_S128x16384_S16384x128_S128x128_1_0_0_1_n_n rfl rfl rfl rfl rfl rfl none _ _ p q

/-- The same at an index given as a function of its two axes. -/
theorem pay0_at (x0 : Vec Ideal S128x16384 .f32) (x1 : Vec Ideal S16384x128 .bf16) (j : S128x128.Idx) :
    k0_pay1 (F := Ideal) x0 x1 j
      = ∑ k : Fin 16384, x0 (ix2 (⟨(j 0).val, (j 0).isLt⟩ : Fin 128) k) * x1 (ix2 k (⟨(j 1).val, (j 1).isLt⟩ : Fin 128)) := by
  have hj : j = ix2 (⟨(j 0).val, (j 0).isLt⟩ : Fin 128) (⟨(j 1).val, (j 1).isLt⟩ : Fin 128) :=
    funext fun a => Fin.ext (by match a with | ⟨0, _⟩ => rfl | ⟨1, _⟩ => rfl)
  conv_lhs => rw [hj]
  exact pay0_apply x0 x1 _ _

theorem pay1_at (x0 : Vec Ideal S128x16384 .f32) (x1 : Vec Ideal S16384x128 .bf16) (j : S128x128.Idx) :
    k1_pay1 (F := Ideal) x0 x1 j
      = ∑ k : Fin 16384, x0 (ix2 (⟨(j 0).val, (j 0).isLt⟩ : Fin 128) k) * x1 (ix2 k (⟨(j 1).val, (j 1).isLt⟩ : Fin 128)) := by
  have hj : j = ix2 (⟨(j 0).val, (j 0).isLt⟩ : Fin 128) (⟨(j 1).val, (j 1).isLt⟩ : Fin 128) :=
    funext fun a => Fin.ext (by match a with | ⟨0, _⟩ => rfl | ⟨1, _⟩ => rfl)
  conv_lhs => rw [hj]
  exact pay1_apply x0 x1 _ _

end Cert.KernelIdeal.Block

end
-- ==== Proof.Region0.lean ====
/-
  The first call's output array after its 64 grid points, as one function of the arrays the call finds.

  Grid point t reads rows 128·t … 128·t + 127 of the reshaped edge tensor (all 16384 columns) and the whole weight
  matrix, and writes back rows 128·t … 128·t + 127 of the output (all 128 columns): the matrix product of the two.
  Each row of the output lies in exactly the block of point r / 128, so after the run the output array holds at (r, q)
  the sum over the contraction positions k of (edge matrix)(r, k) · (weights)(k, q).
-/
import proofs.«130500_j83030307766284_2_alg».proof.Proof.Gen.KernelIdeal.Frame
import proofs.«130500_j83030307766284_2_alg».proof.Proof.Block

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The product of an [8192, 16384] matrix with a [16384, 128] matrix, entry by entry. -/
def prod (R : S8192x16384.Idx → EReal) (B : S16384x128.Idx → EReal) : S8192x128.Idx → EReal := fun i =>
  ∑ k : Fin 16384, R (ix2 (⟨(i 0).val, (i 0).isLt⟩ : Fin 8192) k) * B (ix2 k (⟨(i 1).val, (i 1).isLt⟩ : Fin 128))

/-- The printed index maps over the grid: the left operand's row block moves with the output's; -/
theorem index_left : ∀ t : Fin cfg0.N, win0_0.index t (0 : Fin 2) = win0_2.index t (0 : Fin 2) + 0 ∧ win0_0.index t (1 : Fin 2) = 0 :=
  (by decide +kernel : ∀ t : Fin grid0.N, _)
/-- the weight matrix is one block, and the output's blocks are one column of blocks; -/
theorem index_zero : ∀ t : Fin cfg0.N, win0_1.index t (0 : Fin 2) = 0 ∧ win0_1.index t (1 : Fin 2) = 0 ∧ win0_2.index t (1 : Fin 2) = 0 :=
  (by decide +kernel : ∀ t : Fin grid0.N, _)
/-- the output's row block at a point is the point's number. -/
theorem index_out : ∀ t : Fin cfg0.N, win0_2.index t (0 : Fin 2) = t.val :=
  (by decide +kernel : ∀ t : Fin grid0.N, _)

set_option maxRecDepth 200000 in
/-- What point t writes back is block t of the product of the two arrays the call reads. -/
theorem flushed_eq (c : Dev nD) (t : Fin cfg0.N) :
    (dat0 V c).flushed 2 t = ((cfg0.win 2).blk t).view.read (Elt Ideal) (prod (V c main_v21) (V c main_v20)) := by
  show (cfg0.win 2).cut (grid0.coords t) ((dat0 V c).after 2 t) = _
  rw [after0_2]
  unfold out0_2
  rw [View.canon_unit_zero zero_offsets]
  simp only [View.ld_unit_zero (S := S128x16384) zero_offsets, View.ld_unit_zero (S := S16384x128) zero_offsets]
  obtain ⟨e0, e1⟩ := index_left t
  obtain ⟨e2, e3, e4⟩ := index_zero t
  funext j
  show k0_pay1 (iblk0 V c 0 t) (iblk0 V c 1 t) j = prod (V c main_v21) (V c main_v20) (((cfg0.win 2).blk t).view.emb j)
  refine (Cert.KernelIdeal.Block.pay0_at (iblk0 V c 0 t) (iblk0 V c 1 t) j).trans ?_
  unfold prod
  refine Finset.sum_congr rfl fun k _ => ?_
  have hl : iblk0 V c 0 t (ix2 (⟨(j 0).val, (j 0).isLt⟩ : Fin 128) k)
      = V c main_v21 (ix2 (⟨((((cfg0.win 2).blk t).view.emb j) 0).val, ((((cfg0.win 2).blk t).view.emb j) 0).isLt⟩ : Fin 8192) k) := by
    show V c main_v21 (((cfg0.win 0).blk t).view.emb (ix2 (⟨(j 0).val, (j 0).isLt⟩ : Fin 128) k)) = _
    refine congrArg (V c main_v21) (funext fun a => Fin.ext ?_)
    match a with
    | ⟨0, _⟩ =>
      show win0_0.index t (0 : Fin 2) * 128 + 1 * (j 0).val = win0_2.index t (0 : Fin 2) * 128 + 1 * (j 0).val
      omega
    | ⟨1, _⟩ =>
      show win0_0.index t (1 : Fin 2) * 16384 + 1 * k.val = k.val
      omega
  have hr : iblk0 V c 1 t (ix2 k (⟨(j 1).val, (j 1).isLt⟩ : Fin 128))
      = V c main_v20 (ix2 k (⟨((((cfg0.win 2).blk t).view.emb j) 1).val, ((((cfg0.win 2).blk t).view.emb j) 1).isLt⟩ : Fin 128)) := by
    show V c main_v20 (((cfg0.win 1).blk t).view.emb (ix2 k (⟨(j 1).val, (j 1).isLt⟩ : Fin 128))) = _
    refine congrArg (V c main_v20) (funext fun a => Fin.ext ?_)
    match a with
    | ⟨0, _⟩ =>
      show win0_1.index t (0 : Fin 2) * 16384 + 1 * k.val = k.val
      omega
    | ⟨1, _⟩ =>
      show win0_1.index t (1 : Fin 2) * 128 + 1 * (j 1).val = win0_2.index t (1 : Fin 2) * 128 + 1 * (j 1).val
      omega
  rw [hl, hr]

/-- An index of the output array is in point t's block iff each coordinate is in the block's range on its axis. -/
theorem mem_block (t : Fin cfg0.N) (i : S8192x128.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v23).slice (win0_2.rect t)).set ↔ _
  rw [View.set_slice_whole, Rect.mem_set_unit]
  exact Iff.rfl

/-- Every index of the output array is in the block of the point that holds its row: point r / 128. -/
theorem covered (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  refine ⟨⟨(i 0).val / 128, by show (i 0).val / 128 < grid0.N; rw [N_0]; omega⟩, flush0_2 _, ?_⟩
  rw [mem_block]
  obtain ⟨e2, e3, e4⟩ := index_zero ⟨(i 0).val / 128, by show (i 0).val / 128 < grid0.N; rw [N_0]; omega⟩
  have e5' : win0_2.index ⟨(i 0).val / 128, by show (i 0).val / 128 < grid0.N; rw [N_0]; omega⟩ (0 : Fin 2) = (i 0).val / 128 :=
    index_out ⟨(i 0).val / 128, by show (i 0).val / 128 < grid0.N; rw [N_0]; omega⟩
  intro a
  match a with
  | ⟨0, _⟩ =>
    show win0_2.index _ (0 : Fin 2) * 128 ≤ (i 0).val ∧ (i 0).val < win0_2.index _ (0 : Fin 2) * 128 + 128
    rw [e5']; omega
  | ⟨1, _⟩ =>
    show win0_2.index _ (1 : Fin 2) * 128 ≤ (i 1).val ∧ (i 1).val < win0_2.index _ (1 : Fin 2) * 128 + 128
    rw [e4]; omega

/-- The output array after the run: the product of the two arrays the call reads. -/
theorem final (c : Dev nD) : (dat0 V c).arrAt 2 cfg0.N = prod (V c main_v21) (V c main_v20) :=
  (dat0 V c).arrAt_eq_of_cover 2 (prod (V c main_v21) (V c main_v20)) (fun t _ => flushed_eq V c t) (covered)

end Cert.KernelIdeal.Region0

end
-- ==== Proof.Region1.lean ====
/-
  The second call's output array after its 64 grid points, as one function of the arrays the call finds.

  Grid point t reads rows 128·t … 128·t + 127 of the reshaped edge tensor (all 16384 columns) and the whole weight
  matrix, and writes back rows 128·t … 128·t + 127 of the output (all 128 columns): the matrix product of the two.
  Each row of the output lies in exactly the block of point r / 128, so after the run the output array holds at (r, q)
  the sum over the contraction positions k of (edge matrix)(r, k) · (weights)(k, q).
-/
import proofs.«130500_j83030307766284_2_alg».proof.Proof.Gen.KernelIdeal.Frame
import proofs.«130500_j83030307766284_2_alg».proof.Proof.Block

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The product of an [8192, 16384] matrix with a [16384, 128] matrix, entry by entry. -/
def prod (R : S8192x16384.Idx → EReal) (B : S16384x128.Idx → EReal) : S8192x128.Idx → EReal := fun i =>
  ∑ k : Fin 16384, R (ix2 (⟨(i 0).val, (i 0).isLt⟩ : Fin 8192) k) * B (ix2 k (⟨(i 1).val, (i 1).isLt⟩ : Fin 128))

/-- The printed index maps over the grid: the left operand's row block moves with the output's; -/
theorem index_left : ∀ t : Fin cfg1.N, win1_0.index t (0 : Fin 2) = win1_2.index t (0 : Fin 2) + 0 ∧ win1_0.index t (1 : Fin 2) = 0 :=
  (by decide +kernel : ∀ t : Fin grid1.N, _)
/-- the weight matrix is one block, and the output's blocks are one column of blocks; -/
theorem index_zero : ∀ t : Fin cfg1.N, win1_1.index t (0 : Fin 2) = 0 ∧ win1_1.index t (1 : Fin 2) = 0 ∧ win1_2.index t (1 : Fin 2) = 0 :=
  (by decide +kernel : ∀ t : Fin grid1.N, _)
/-- the output's row block at a point is the point's number. -/
theorem index_out : ∀ t : Fin cfg1.N, win1_2.index t (0 : Fin 2) = t.val :=
  (by decide +kernel : ∀ t : Fin grid1.N, _)

set_option maxRecDepth 200000 in
/-- What point t writes back is block t of the product of the two arrays the call reads. -/
theorem flushed_eq (c : Dev nD) (t : Fin cfg1.N) :
    (dat1 V c).flushed 2 t = ((cfg1.win 2).blk t).view.read (Elt Ideal) (prod (V c main_v22) (V c main_v20)) := by
  show (cfg1.win 2).cut (grid1.coords t) ((dat1 V c).after 2 t) = _
  rw [after1_2]
  unfold out1_2
  rw [View.canon_unit_zero zero_offsets]
  simp only [View.ld_unit_zero (S := S128x16384) zero_offsets, View.ld_unit_zero (S := S16384x128) zero_offsets]
  obtain ⟨e0, e1⟩ := index_left t
  obtain ⟨e2, e3, e4⟩ := index_zero t
  funext j
  show k1_pay1 (iblk1 V c 0 t) (iblk1 V c 1 t) j = prod (V c main_v22) (V c main_v20) (((cfg1.win 2).blk t).view.emb j)
  refine (Cert.KernelIdeal.Block.pay1_at (iblk1 V c 0 t) (iblk1 V c 1 t) j).trans ?_
  unfold prod
  refine Finset.sum_congr rfl fun k _ => ?_
  have hl : iblk1 V c 0 t (ix2 (⟨(j 0).val, (j 0).isLt⟩ : Fin 128) k)
      = V c main_v22 (ix2 (⟨((((cfg1.win 2).blk t).view.emb j) 0).val, ((((cfg1.win 2).blk t).view.emb j) 0).isLt⟩ : Fin 8192) k) := by
    show V c main_v22 (((cfg1.win 0).blk t).view.emb (ix2 (⟨(j 0).val, (j 0).isLt⟩ : Fin 128) k)) = _
    refine congrArg (V c main_v22) (funext fun a => Fin.ext ?_)
    match a with
    | ⟨0, _⟩ =>
      show win1_0.index t (0 : Fin 2) * 128 + 1 * (j 0).val = win1_2.index t (0 : Fin 2) * 128 + 1 * (j 0).val
      omega
    | ⟨1, _⟩ =>
      show win1_0.index t (1 : Fin 2) * 16384 + 1 * k.val = k.val
      omega
  have hr : iblk1 V c 1 t (ix2 k (⟨(j 1).val, (j 1).isLt⟩ : Fin 128))
      = V c main_v20 (ix2 k (⟨((((cfg1.win 2).blk t).view.emb j) 1).val, ((((cfg1.win 2).blk t).view.emb j) 1).isLt⟩ : Fin 128)) := by
    show V c main_v20 (((cfg1.win 1).blk t).view.emb (ix2 k (⟨(j 1).val, (j 1).isLt⟩ : Fin 128))) = _
    refine congrArg (V c main_v20) (funext fun a => Fin.ext ?_)
    match a with
    | ⟨0, _⟩ =>
      show win1_1.index t (0 : Fin 2) * 16384 + 1 * k.val = k.val
      omega
    | ⟨1, _⟩ =>
      show win1_1.index t (1 : Fin 2) * 128 + 1 * (j 1).val = win1_2.index t (1 : Fin 2) * 128 + 1 * (j 1).val
      omega
  rw [hl, hr]

/-- An index of the output array is in point t's block iff each coordinate is in the block's range on its axis. -/
theorem mem_block (t : Fin cfg1.N) (i : S8192x128.Idx) :
    i ∈ ((cfg1.win 2).blk t).view.set ↔ ∀ a : Fin 2, win1_2.index t a * S128x128.size a ≤ (i a).val ∧ (i a).val < win1_2.index t a * S128x128.size a + S128x128.size a := by
  show i ∈ ((View.whole main_v24).slice (win1_2.rect t)).set ↔ _
  rw [View.set_slice_whole, Rect.mem_set_unit]
  exact Iff.rfl

/-- Every index of the output array is in the block of the point that holds its row: point r / 128. -/
theorem covered (i : S8192x128.Idx) : ∃ t : Fin cfg1.N, (cfg1.win 2).flush t = true ∧ i ∈ ((cfg1.win 2).blk t).view.set := by
  have hi0 : (i 0).val < 8192 := (i 0).isLt
  have hi1 : (i 1).val < 128 := (i 1).isLt
  refine ⟨⟨(i 0).val / 128, by show (i 0).val / 128 < grid1.N; rw [N_1]; omega⟩, flush1_2 _, ?_⟩
  rw [mem_block]
  obtain ⟨e2, e3, e4⟩ := index_zero ⟨(i 0).val / 128, by show (i 0).val / 128 < grid1.N; rw [N_1]; omega⟩
  have e5' : win1_2.index ⟨(i 0).val / 128, by show (i 0).val / 128 < grid1.N; rw [N_1]; omega⟩ (0 : Fin 2) = (i 0).val / 128 :=
    index_out ⟨(i 0).val / 128, by show (i 0).val / 128 < grid1.N; rw [N_1]; omega⟩
  intro a
  match a with
  | ⟨0, _⟩ =>
    show win1_2.index _ (0 : Fin 2) * 128 ≤ (i 0).val ∧ (i 0).val < win1_2.index _ (0 : Fin 2) * 128 + 128
    rw [e5']; omega
  | ⟨1, _⟩ =>
    show win1_2.index _ (1 : Fin 2) * 128 ≤ (i 1).val ∧ (i 1).val < win1_2.index _ (1 : Fin 2) * 128 + 128
    rw [e4]; omega

/-- The output array after the run: the product of the two arrays the call reads. -/
theorem final (c : Dev nD) : (dat1 V c).arrAt 2 cfg1.N = prod (V c main_v22) (V c main_v20) :=
  (dat1 V c).arrAt_eq_of_cover 2 (prod (V c main_v22) (V c main_v20)) (fun t _ => flushed_eq V c t) (covered)

end Cert.KernelIdeal.Region1

end
-- ==== Proof.KernelIsG.lean ====
/-
  The idealized kernel program's result is the specification G.

  The result buffer is the stacking of band sums of the two calls' output arrays (the host tail); each output array is
  the product of a flattened edge tensor with the weight matrix (the calls); a band of such a product at channel e is,
  by the zero pattern of the weight matrix, the sum over the source nodes of E(n, s, e) times the mixed matrix's entry;
  the two bands and α·b2 together are the kernel's arrangement of a sheet entry, which is the reference's when every
  argument entry is real.
-/
import proofs.«130500_j83030307766284_2_alg».proof.Proof.HostState
import proofs.«130500_j83030307766284_2_alg».proof.Proof.HostRead
import proofs.«130500_j83030307766284_2_alg».proof.Proof.Region0
import proofs.«130500_j83030307766284_2_alg».proof.Proof.Region1
import proofs.«130500_j83030307766284_2_alg».proof.Proof.Sheet

set_option maxRecDepth 65536

noncomputable section

open scoped BigOperators

namespace Cert.KernelIdeal.KernelG

open Cert.KernelIdeal Cert.KernelIdeal.Gen Cert.KernelIdeal.HostTerms Cert.KernelIdeal.HostRead Cert.KernelIdeal.HostState Cert.Sheet
open Idealize.ShloMosaic Idealize.ShloMosaic.TcCoe Idealize.ShloMosaic.ValueIdx Idealize.SL.Sem Cert.Lib.ScaledTiles

/-- Row n, column j of the product of a flattened edge tensor with a weight matrix. -/
def prodAt (E : FVec Ideal S8192x8192x2 .f32) (C : FVec Ideal S8192x64 .f32) (n : Fin 8192) (j : Fin 128) : EReal :=
  ∑ k : Fin 16384, flat E (ix2 n k) * weights C (ix2 k j)

theorem prod0_apply (R : FVec Ideal S8192x16384 .f32) (B : FVec Ideal S16384x128 .bf16) (n : Fin 8192) (j : Fin 128) :
    Cert.KernelIdeal.Region0.prod R B (ix2 n j) = ∑ k : Fin 16384, R (ix2 n k) * B (ix2 k j) := rfl
theorem prod1_apply (R : FVec Ideal S8192x16384 .f32) (B : FVec Ideal S16384x128 .bf16) (n : Fin 8192) (j : Fin 128) :
    Cert.KernelIdeal.Region1.prod R B (ix2 n j) = ∑ k : Fin 16384, R (ix2 n k) * B (ix2 k j) := rfl

/-- A column of the product on channel e: only the contraction positions 2s + e contribute. -/
theorem band (E : FVec Ideal S8192x8192x2 .f32) (C : FVec Ideal S8192x64 .f32) (n : Fin 8192) (e : Fin 2) (g : Fin 64) :
    prodAt E C n (col64 e g) = ∑ s : Fin 8192, E (ix3 n s e) * C (ix2 s g) := by
  have h := sum_channel (n := 8192) (fun k => flat E (ix2 n k)) (fun k => weights C (ix2 k (col64 e g))) (fun s => C (ix2 s g)) e
    (fun s q => weights_apply C s q e g)
  refine h.trans (Finset.sum_congr rfl fun s _ => ?_)
  show flat E (ix2 n (row2 s e)) * _ = _
  rw [flat_apply]

/-- One channel's sheet of a call's output at node n and filter f is the kernel's arrangement of the sheet entry. -/
theorem sheet_entry (X : FVec Ideal S8192x128 .f32) (E : FVec Ideal S8192x8192x2 .f32) (α : FVec Ideal S_ .f32) (W1 : FVec Ideal S128x32 .f32)
    (b1 : FVec Ideal S32 .f32) (W2 : FVec Ideal S8192x32 .f32) (b2 : FVec Ideal S32 .f32) (P : FVec Ideal S8192x128 .f32)
    (hP : ∀ (n : Fin 8192) (j : Fin 128), P (ix2 n j) = prodAt E (mixed α W2 (xdwArr X W1 b1)) n j) (e : Fin 2) (n : Fin 8192) (f : Fin 32) :
    sheetOf P (scaledBias α b2) e (ix2 n f) = sheetAtKer X E α W1 b1 W2 b2 e n f := by
  have key : (P (ix2 n (col64 e (lo32 f))) + P (ix2 n (col64 e (hi32 f)))) + scaledBias α b2 (ix1 f) = sheetAtKer X E α W1 b1 W2 b2 e n f := by
    rw [hP, hP, band, band, scaledBias_apply]
    unfold sheetAtKer sheetKer
    simp only [mixed_lo, mixed_hi, xdwArr_apply, xdw] <;> rfl
  fin_cases e
  · exact (bandSum_apply P 0 32 _ _ _ n f (col64 0 (lo32 f)) (col64 0 (hi32 f))
      (by show 64 * 0 + f.val = 0 + f.val; omega) (by show 64 * 0 + (32 + f.val) = 32 + f.val; omega)).trans key
  · exact (bandSum_apply P 64 96 _ _ _ n f (col64 1 (lo32 f)) (col64 1 (hi32 f))
      (by show 64 * 1 + f.val = 64 + f.val; omega) (by show 64 * 1 + (32 + f.val) = 96 + f.val; omega)).trans key

/-- The result array at channel e: the stacked sheets of that channel plus the last bias. -/
theorem result_sel (Y : Fin 2 → FVec Ideal S16384x32 .f32) (bias : FVec Ideal S32 .f32) (e : Fin 2) (r : Fin 16384) (f : Fin 32) :
    result (Y 0) (Y 1) bias (ix3 e r f) = Y e (ix2 r f) + bias (ix1 f) := by
  fin_cases e
  · exact result_zero (Y 0) (Y 1) bias r f
  · exact result_one (Y 0) (Y 1) bias r f

variable (m : (ℓ : Loc nD τ sig) → Buf (Elt Ideal) ℓ) (ρ : Dev nD → PrngReg)

/-- The result buffer after the run is G of the argument arrays, when every argument entry is real. -/
theorem value (c : Dev nD)
    (hX : ∀ i, ∃ r : ℝ, aX m c i = (r : EReal)) (hE0 : ∀ i, ∃ r : ℝ, aE0 m c i = (r : EReal)) (hE1 : ∀ i, ∃ r : ℝ, aE1 m c i = (r : EReal))
    (hα : ∀ i, ∃ r : ℝ, aα m c i = (r : EReal)) (hW1 : ∀ i, ∃ r : ℝ, aW1 m c i = (r : EReal)) (hb1 : ∀ i, ∃ r : ℝ, ab1 m c i = (r : EReal))
    (hW2 : ∀ i, ∃ r : ℝ, aW2 m c i = (r : EReal)) (hb2 : ∀ i, ∃ r : ℝ, ab2 m c i = (r : EReal)) :
    W4 m ρ c (Proc.devRef .tc main_v58)
      = G (aX m c) (aE0 m c) (aE1 m c) (aα m c) (aW1 m c) (ab1 m c) (aW2 m c) (ab2 m c) (abias m c) := by
  have h0 : W3 m ρ c (Proc.devRef .tc main_v23) = Cert.KernelIdeal.Region0.prod (flat (aE0 m c)) (theWeights m c) := by
    rw [out0, Cert.KernelIdeal.Region0.final (V1 m ρ) c, left0, right0]
  have h1 : W3 m ρ c (Proc.devRef .tc main_v24) = Cert.KernelIdeal.Region1.prod (flat (aE1 m c)) (theWeights m c) := by
    rw [out1, Cert.KernelIdeal.Region1.final (V2 m ρ) c, left1, right1]
  rw [tail m ρ c _ _ h0 h1]
  funext i
  obtain ⟨e, r, f, rfl⟩ : ∃ (e : Fin 2) (r : Fin 16384) (f : Fin 32), i = ix3 e r f := ⟨i 0, i 1, i 2, eq_ix3 i⟩
  refine (result_sel (fun e => stacked (sheetOf (Cert.KernelIdeal.Region0.prod (flat (aE0 m c)) (theWeights m c)) (scaledBias (aα m c) (ab2 m c)) e)
    (sheetOf (Cert.KernelIdeal.Region1.prod (flat (aE1 m c)) (theWeights m c)) (scaledBias (aα m c) (ab2 m c)) e)) (abias m c) e r f).trans ?_
  by_cases h : r.val < 8192
  · rw [G_lo _ _ _ _ _ _ _ _ _ e ⟨r.val, h⟩ f r rfl]
    congr 1
    refine (stacked_lo _ _ ⟨r.val, h⟩ f r rfl).trans ?_
    refine (sheet_entry (aX m c) (aE0 m c) (aα m c) (aW1 m c) (ab1 m c) (aW2 m c) (ab2 m c) _ (fun n j => prod0_apply _ _ n j) e ⟨r.val, h⟩ f).trans ?_
    exact sheetAtKer_eq _ _ _ _ _ _ _ hX hE0 hα hW1 hb1 hW2 hb2 e ⟨r.val, h⟩ f
  · have h2 : r.val < 16384 := r.isLt
    rw [G_hi _ _ _ _ _ _ _ _ _ e ⟨r.val - 8192, by omega⟩ f r (by show r.val = r.val - 8192 + 8192; omega)]
    congr 1
    refine (stacked_hi _ _ ⟨r.val - 8192, by omega⟩ f r (by show r.val = r.val - 8192 + 8192; omega)).trans ?_
    refine (sheet_entry (aX m c) (aE1 m c) (aα m c) (aW1 m c) (ab1 m c) (aW2 m c) (ab2 m c) _ (fun n j => prod1_apply _ _ n j) e ⟨r.val - 8192, by omega⟩ f).trans ?_
    exact sheetAtKer_eq _ _ _ _ _ _ _ hX hE1 hα hW1 hb1 hW2 hb2 e ⟨r.val - 8192, by omega⟩ f

end Cert.KernelIdeal.KernelG

end
-- ==== Proof.Finite.lean ====
/-
  From the precondition to real numbers.

  The precondition says, of each of the nine float arguments, that the absolute value of every entry compares below
  the word of +infinity, all these comparisons joined by `and` (each array's comparisons first reduced by `and`).
  On the extended reals an element whose absolute value max x (−x) is below +∞ is neither +∞ nor −∞: it is a real
  number. So under the precondition every entry of every argument is a real.
-/
import proofs.«130500_j83030307766284_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic

variable [Cert.Pre_finite_inputs.Facts]
open Cert.Pre_finite_inputs.Facts

instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- An array all of whose entries pass the comparison (their `and` over the whole array is 1) has real entries. -/
theorem all_real {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) :=
  real_of_abs_lt (a i) (Host.reduce_andi_all _ _ hr hu _ h i)

/-- The same for the scalar argument, compared without a broadcast. -/
theorem scalar_real (a : FVec Ideal S_ .f32) (hr : S_.ReducesTo [] S_) (hu : 0 < S_.numel)
    (h : Host.reduce IntOp.andi (cmpf .olt (Host.absf a) (constant (F := Ideal) S_ .f32 0x7F800000#32))
      (constantI S_ 1 1#1) hr hu ValueIdx.ix0 = 1#1) (i : S_.Idx) : ∃ r : ℝ, a i = (r : EReal) :=
  real_of_abs_lt (a i) (Host.reduce_andi_all _ _ hr hu _ h i)

/-- Under the precondition every entry of every argument array is a real number. -/
theorem reals_of_pre (a0 : FVec Ideal S8192x128 .f32) (a1 a2 : FVec Ideal S8192x8192x2 .f32) (a3 : FVec Ideal S_ .f32)
    (a4 : FVec Ideal S128x32 .f32) (a5 : FVec Ideal S32 .f32) (a6 : FVec Ideal S8192x32 .f32) (a7 a8 : FVec Ideal S32 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  unfold fn fn_part1 fn_part2 at h0
  dsimp only at h0
  obtain ⟨h0, l8⟩ := IntOp.andi_eq_one.mp h0
  obtain ⟨h0, l7⟩ := IntOp.andi_eq_one.mp h0
  obtain ⟨h0, l6⟩ := IntOp.andi_eq_one.mp h0
  obtain ⟨h0, l5⟩ := IntOp.andi_eq_one.mp h0
  obtain ⟨h0, l4⟩ := IntOp.andi_eq_one.mp h0
  obtain ⟨h0, l3⟩ := IntOp.andi_eq_one.mp h0
  obtain ⟨h0, l2⟩ := IntOp.andi_eq_one.mp h0
  obtain ⟨l0, l1⟩ := IntOp.andi_eq_one.mp h0
  exact ⟨all_real a0 _ _ _ l0, all_real a1 _ _ _ l1, all_real a2 _ _ _ l2, scalar_real a3 _ _ l3, all_real a4 _ _ _ l4,
    all_real a5 _ _ _ l5, all_real a6 _ _ _ l6, all_real a7 _ _ _ l7, all_real a8 _ _ _ l8⟩

end Cert.Pre_finite_inputs.Finite

end
-- ==== Proof.lean ====
/-
  A graph-convolution layer: a Pallas kernel program against its jnp reference, equal on the extended reals.

  For node features X [N, 128], two edge tensors E0, E1 [N, N, 2], a mixing scalar α, a node embedding (W1, b1), an
  edge embedding (W2, b2) and a last bias, both programs compute, for each edge tensor E, channel e, node n and filter f,

      α · ((Σ_s E(n, s, e) · W2(s, f)) + b2(f)) + (1 − α) · Σ_s E(n, s, e) · (X·W1 + b1)(s, f),

  lay the two edge tensors' sheets one after the other along the node axis and add the last bias. The reference does so
  literally. The kernel program reads each edge tensor as a matrix [N, 2N], multiplies it — in one pipelined call of 64
  row blocks per edge tensor — with one weight matrix [2N, 128] in which α, 1 − α and the channel selection are folded
  (zero rows off the wanted channel), and afterwards adds two column bands and α·b2. The two agree when every argument
  entry is real, which the precondition gives: the kernel's form distributes the scalars into the sums.

  The three frames are the generated frame certificates (the reference's from its run). The idealization rewrote nothing,
  so it is preserved trivially. The value claim joins the kernel program's run, with the result buffer read off the last
  segment boundary, to the reference's run: both results are the one function G of the arguments.
-/
import proofs.«130500_j83030307766284_2_alg».proof.Defs
import proofs.«130500_j83030307766284_2_alg».proof.Proof.Gen.Kernel
import proofs.«130500_j83030307766284_2_alg».proof.Proof.Gen.Kernel.Skeleton
import proofs.«130500_j83030307766284_2_alg».proof.Proof.Gen.Kernel.Launch
import proofs.«130500_j83030307766284_2_alg».proof.Proof.Gen.Kernel.Points
import proofs.«130500_j83030307766284_2_alg».proof.Proof.Gen.Kernel.Frame
import proofs.«130500_j83030307766284_2_alg».proof.Proof.Gen.KernelIdeal
import proofs.«130500_j83030307766284_2_alg».proof.Proof.Gen.KernelIdeal.Skeleton
import proofs.«130500_j83030307766284_2_alg».proof.Proof.Gen.KernelIdeal.Launch
import proofs.«130500_j83030307766284_2_alg».proof.Proof.Gen.KernelIdeal.Points
import proofs.«130500_j83030307766284_2_alg».proof.Proof.Gen.KernelIdeal.Frame
import proofs.«130500_j83030307766284_2_alg».proof.Proof.Gen.ReferenceIdeal
import proofs.«130500_j83030307766284_2_alg».proof.Proof.Gen.Pre_finite_inputs
import proofs.«130500_j83030307766284_2_alg».proof.Proof.RefRunP
import proofs.«130500_j83030307766284_2_alg».proof.Proof.RefReadP
import proofs.«130500_j83030307766284_2_alg».proof.Proof.RefIsG
import proofs.«130500_j83030307766284_2_alg».proof.Proof.KernelRun
import proofs.«130500_j83030307766284_2_alg».proof.Proof.KernelIsG
import proofs.«130500_j83030307766284_2_alg».proof.Proof.Finite
import Idealize.ShloMosaic.Adequacy
import Idealize.ShloMosaic.Init

noncomputable section

namespace Cert.Proof

open Idealize.ShloMosaic Idealize.SL.Sem

/-- The word-level kernel program runs and keeps its arguments: its generated frame certificate. -/
theorem frame_k : Cert.frame_Kernel := fun m ρ _ => Cert.Kernel.Gen.frame m ρ

/-- The idealized kernel program runs and keeps its arguments: its generated frame certificate. -/
theorem frame_ki : Cert.frame_KernelIdeal := fun m ρ _ => Cert.KernelIdeal.Gen.frame m ρ

/-- The reference runs and keeps its arguments: its run, the results dropped. -/
theorem frame_ri : Cert.frame_ReferenceIdeal := fun m ρ _ =>
  (θ_run Cert.ReferenceIdeal.defs _ _).mono (fun _ h c => (h c).2.2.2) (Cert.ReferenceIdeal.RunP.run (F := Ideal) m ρ)

/-- From memories agreeing on the arguments, both programs end with the result G of the arguments, and with the two
    edge tensors and every argument as launched. -/
theorem algebraic : Cert.algebraic_KernelIdeal_ReferenceIdeal := by
  intro m ρ m' ρ' hpre hagree
  have hr := fun c => Cert.Pre_finite_inputs.Finite.reals_of_pre _ _ _ _ _ _ _ _ _ (hpre c)
  refine ⟨fun c => Cert.Sheet.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2), ?_, ?_⟩
  · refine (θ_run Cert.KernelIdeal.defs _ _).mono (fun r h c => ?_) (Cert.KernelIdeal.Named.run_named (F := Ideal) m ρ)
    obtain ⟨hv, h0, h1, h2, h3, h4, h5, h6, h7, h8⟩ := h c
    obtain ⟨rX, rE0, rE1, rα, rW1, rb1, rW2, rb2, -⟩ := hr c
    exact ⟨hv.trans (Cert.KernelIdeal.KernelG.value m ρ c rX rE0 rE1 rα rW1 rb1 rW2 rb2), h1, h2, h0, h1, h2, h3, h4, h5, h6, h7, h8⟩
  · refine (θ_run Cert.ReferenceIdeal.defs _ _).mono (fun r h c => ?_) (Cert.ReferenceIdeal.RunP.run (F := Ideal) m' ρ')
    obtain ⟨hv, h1', h2', h0, h1, h2, h3, h4, h5, h6, h7, h8⟩ := h c
    obtain ⟨a0, a1, a2, a3, a4, a5, a6, a7, a8⟩ := hagree c
    refine ⟨?_, h1'.trans a1, h2'.trans a2, h0, h1, h2, h3, h4, h5, h6, h7, h8⟩
    rw [hv, Cert.ReferenceIdeal.ReadP.val_main_v31_eq, Cert.ReferenceIdeal.RefG.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
